-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v94)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v94) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part2 {F : FTy → Type} [FloatOps F] (main_arg8 : FVec F S256x256 .f32) (main_arg9 : FVec F S256 .f32) (main_v33 : IVec S_ 1) : IVec S_ 1 :=
  let main_v34 : FVec F S256x256 .f32 := Host.absf main_arg8
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  main_v43

def fn_part1 {F : FTy → Type} [FloatOps F] (main_arg5 : FVec F S256 .f32) (main_arg6 : FVec F S256x256 .f32) (main_arg7 : FVec F S256 .f32) (main_arg8 : FVec F S256x256 .f32) (main_arg9 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg6
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_v33

def fn {F : FTy → Type} [FloatOps F] (main_arg0 : FVec F S50000x256 .f32) (main_arg1 : IVec S2x800000 32) (main_arg2 : FVec F S256x256 .f32) (main_arg3 : FVec F S256 .f32) (main_arg4 : FVec F S256x256 .f32) (main_arg5 : FVec F S256 .f32) (main_arg6 : FVec F S256x256 .f32) (main_arg7 : FVec F S256 .f32) (main_arg8 : FVec F S256x256 .f32) (main_arg9 : FVec F S256 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg5 main_arg6 main_arg7 main_arg8 main_arg9 main_v13 main_v16
-- ==== Kernel.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S1x256 : Shape := ⟨2, ![1, 256]⟩
abbrev S5000x256 : Shape := ⟨2, ![5000, 256]⟩
abbrev S_ : Shape := ⟨0, ![]⟩
abbrev S850000x1 : Shape := ⟨2, ![850000, 1]⟩
abbrev S850000x256 : Shape := ⟨2, ![850000, 256]⟩

abbrev nBuf : Space → Nat
  | .hbm => 133
  | .vmem => 24
  | .smem => 0
  | _ => 0

abbrev hbmTy0_0 (i : Nat) : BufTy := match i % 128 with
  | 0 => ⟨S50000x256, .f32⟩
  | 1 => ⟨S2x800000, .i32⟩
  | 2 => ⟨S256x256, .f32⟩
  | 3 => ⟨S256, .f32⟩
  | 4 => ⟨S256x256, .f32⟩
  | 5 => ⟨S256, .f32⟩
  | 6 => ⟨S256x256, .f32⟩
  | 7 => ⟨S256, .f32⟩
  | 8 => ⟨S256x256, .f32⟩
  | 9 => ⟨S256, .f32⟩
  | 10 => ⟨S50000, .i32⟩
  | 11 => ⟨S1x800000, .i32⟩
  | 12 => ⟨S800000, .i32⟩
  | 13 => ⟨S850000, .i32⟩
  | 14 => ⟨S1x800000, .i32⟩
  | 15 => ⟨S800000, .i32⟩
  | 16 => ⟨S850000, .i32⟩
  | 17 => ⟨S1x256, .f32⟩
  | 18 => ⟨S50000x256, .f32⟩
  | 19 => ⟨S_, .f32⟩
  | 20 => ⟨S256, .f32⟩
  | 21 => ⟨S1x256, .f32⟩
  | 22 => ⟨S50000x256, .f32⟩
  | 23 => ⟨S_, .f32⟩
  | 24 => ⟨S850000, .f32⟩
  | 25 => ⟨S_, .f32⟩
  | 26 => ⟨S50000, .f32⟩
  | 27 => ⟨S850000x1, .i32⟩
  | 28 => ⟨S50000, .f32⟩
  | 29 => ⟨S_, .f32⟩
  | 30 => ⟨S50000, .f32⟩
  | 31 => ⟨S50000, .i1⟩
  | 32 => ⟨S50000, .f32⟩
  | 33 => ⟨S_, .f32⟩
  | 34 => ⟨S_, .f32⟩
  | 35 => ⟨S50000, .f32⟩
  | 36 => ⟨S50000, .f32⟩
  | 37 => ⟨S_, .i32⟩
  | 38 => ⟨S850000, .i32⟩
  | 39 => ⟨S850000, .i1⟩
  | 40 => ⟨S_, .i32⟩
  | 41 => ⟨S850000, .i32⟩
  | 42 => ⟨S850000, .i32⟩
  | 43 => ⟨S850000, .i32⟩
  | 44 => ⟨S850000x1, .i32⟩
  | 45 => ⟨S850000, .f32⟩
  | 46 => ⟨S_, .i32⟩
  | 47 => ⟨S850000, .i32⟩
  | 48 => ⟨S850000, .i1⟩
  | 49 => ⟨S_, .i32⟩
  | 50 => ⟨S850000, .i32⟩
  | 51 => ⟨S850000, .i32⟩
  | 52 => ⟨S850000, .i32⟩
  | 53 => ⟨S850000x1, .i32⟩
  | 54 => ⟨S850000, .f32⟩
  | 55 => ⟨S850000, .f32⟩
  | 56 => ⟨S_, .i32⟩
  | 57 => ⟨S850000, .i32⟩
  | 58 => ⟨S850000, .i1⟩
  | 59 => ⟨S_, .i32⟩
  | 60 => ⟨S850000, .i32⟩
  | 61 => ⟨S850000, .i32⟩
  | 62 => ⟨S850000, .i32⟩
  | 63 => ⟨S850000x1, .i32⟩
  | 64 => ⟨S850000x256, .f32⟩
  | 65 => ⟨S850000x1, .f32⟩
  | 66 => ⟨S850000x256, .f32⟩
  | 67 => ⟨S850000x256, .f32⟩
  | 68 => ⟨S_, .f32⟩
  | 69 => ⟨S50000x256, .f32⟩
  | 70 => ⟨S850000x1, .i32⟩
  | 71 => ⟨S50000x256, .f32⟩
  | 72 => ⟨S1x256, .f32⟩
  | 73 => ⟨S50000x256, .f32⟩
  | 74 => ⟨S50000x256, .f32⟩
  | 75 => ⟨S_, .f32⟩
  | 76 => ⟨S256, .f32⟩
  | 77 => ⟨S1x256, .f32⟩
  | 78 => ⟨S50000x256, .f32⟩
  | 79 => ⟨S_, .f32⟩
  | 80 => ⟨S850000, .f32⟩
  | 81 => ⟨S_, .f32⟩
  | 82 => ⟨S50000, .f32⟩
  | 83 => ⟨S850000x1, .i32⟩
  | 84 => ⟨S50000, .f32⟩
  | 85 => ⟨S_, .f32⟩
  | 86 => ⟨S50000, .f32⟩
  | 87 => ⟨S50000, .i1⟩
  | 88 => ⟨S50000, .f32⟩
  | 89 => ⟨S_, .f32⟩
  | 90 => ⟨S_, .f32⟩
  | 91 => ⟨S50000, .f32⟩
  | 92 => ⟨S50000, .f32⟩
  | 93 => ⟨S_, .i32⟩
  | 94 => ⟨S850000, .i32⟩
  | 95 => ⟨S850000, .i1⟩
  | 96 => ⟨S_, .i32⟩
  | 97 => ⟨S850000, .i32⟩
  | 98 => ⟨S850000, .i32⟩
  | 99 => ⟨S850000, .i32⟩
  | 100 => ⟨S850000x1, .i32⟩
  | 101 => ⟨S850000, .f32⟩
  | 102 => ⟨S_, .i32⟩
  | 103 => ⟨S850000, .i32⟩
  | 104 => ⟨S850000, .i1⟩
  | 105 => ⟨S_, .i32⟩
  | 106 => ⟨S850000, .i32⟩
  | 107 => ⟨S850000, .i32⟩
  | 108 => ⟨S850000, .i32⟩
  | 109 => ⟨S850000x1, .i32⟩
  | 110 => ⟨S850000, .f32⟩
  | 111 => ⟨S850000, .f32⟩
  | 112 => ⟨S_, .i32⟩
  | 113 => ⟨S850000, .i32⟩
  | 114 => ⟨S850000, .i1⟩
  | 115 => ⟨S_, .i32⟩
  | 116 => ⟨S850000, .i32⟩
  | 117 => ⟨S850000, .i32⟩
  | 118 => ⟨S850000, .i32⟩
  | 119 => ⟨S850000x1, .i32⟩
  | 120 => ⟨S850000x256, .f32⟩
  | 121 => ⟨S850000x1, .f32⟩
  | 122 => ⟨S850000x256, .f32⟩
  | 123 => ⟨S850000x256, .f32⟩
  | 124 => ⟨S_, .f32⟩
  | 125 => ⟨S50000x256, .f32⟩
  | 126 => ⟨S850000x1, .i32⟩
  | 127 => ⟨S50000x256, .f32⟩
  | _ => ⟨S50000x256, .f32⟩

abbrev hbmTy0_1 (i : Nat) : BufTy := match i % 128 with
  | 0 => ⟨S1x256, .f32⟩
  | 1 => ⟨S50000x256, .f32⟩
  | 2 => ⟨S50000x256, .f32⟩
  | 3 => ⟨S1x256, .f32⟩
  | 4 => ⟨S50000x256, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | .local _ .vmem, ⟨0, _⟩ => ⟨S5000x256, .f32⟩
  | .local _ .vmem, ⟨1, _⟩ => ⟨S5000x256, .f32⟩
  | .local _ .vmem, ⟨2, _⟩ => ⟨S256x256, .f32⟩
  | .local _ .vmem, ⟨3, _⟩ => ⟨S1x256, .f32⟩
  | .local _ .vmem, ⟨4, _⟩ => ⟨S5000x256, .f32⟩
  | .local _ .vmem, ⟨5, _⟩ => ⟨S5000x256, .f32⟩
  | .local _ .vmem, ⟨6, _⟩ => ⟨S5000x256, .f32⟩
  | .local _ .vmem, ⟨7, _⟩ => ⟨S5000x256, .f32⟩
  | .local _ .vmem, ⟨8, _⟩ => ⟨S256x256, .f32⟩
  | .local _ .vmem, ⟨9, _⟩ => ⟨S1x256, .f32⟩
  | .local _ .vmem, ⟨10, _⟩ => ⟨S5000x256, .f32⟩
  | .local _ .vmem, ⟨11, _⟩ => ⟨S5000x256, .f32⟩
  | .local _ .vmem, ⟨12, _⟩ => ⟨S5000x256, .f32⟩
  | .local _ .vmem, ⟨13, _⟩ => ⟨S5000x256, .f32⟩
  | .local _ .vmem, ⟨14, _⟩ => ⟨S256x256, .f32⟩
  | .local _ .vmem, ⟨15, _⟩ => ⟨S1x256, .f32⟩
  | .local _ .vmem, ⟨16, _⟩ => ⟨S5000x256, .f32⟩
  | .local _ .vmem, ⟨17, _⟩ => ⟨S5000x256, .f32⟩
  | .local _ .vmem, ⟨18, _⟩ => ⟨S5000x256, .f32⟩
  | .local _ .vmem, ⟨19, _⟩ => ⟨S5000x256, .f32⟩
  | .local _ .vmem, ⟨20, _⟩ => ⟨S256x256, .f32⟩
  | .local _ .vmem, ⟨21, _⟩ => ⟨S1x256, .f32⟩
  | .local _ .vmem, ⟨22, _⟩ => ⟨S5000x256, .f32⟩
  | .local _ .vmem, ⟨23, _⟩ => ⟨S5000x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_0 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_3 : Ref sig .tc := ⟨.hbm, 33, rfl⟩
abbrev main_call0_v0 : Ref sig .tc := ⟨.hbm, 34, rfl⟩
abbrev main_call0_v1 : Ref sig .tc := ⟨.hbm, 35, rfl⟩
abbrev main_v19 : Ref sig .tc := ⟨.hbm, 36, rfl⟩
abbrev main_c : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_c_5 : Ref sig .tc := ⟨.hbm, 46, rfl⟩
abbrev main_v27 : Ref sig .tc := ⟨.hbm, 47, rfl⟩
abbrev main_v28 : Ref sig .tc := ⟨.hbm, 48, rfl⟩
abbrev main_c_6 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_c_7 : Ref sig .tc := ⟨.hbm, 56, rfl⟩
abbrev main_v35 : Ref sig .tc := ⟨.hbm, 57, rfl⟩
abbrev main_v36 : Ref sig .tc := ⟨.hbm, 58, rfl⟩
abbrev main_c_8 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_9 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_cst_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_11 : Ref sig .tc := ⟨.hbm, 79, rfl⟩
abbrev main_v54 : Ref sig .tc := ⟨.hbm, 80, rfl⟩
abbrev main_cst_12 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_13 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_14 : Ref sig .tc := ⟨.hbm, 89, rfl⟩
abbrev main_call1_v0 : Ref sig .tc := ⟨.hbm, 90, rfl⟩
abbrev main_call1_v1 : Ref sig .tc := ⟨.hbm, 91, rfl⟩
abbrev main_v61 : Ref sig .tc := ⟨.hbm, 92, rfl⟩
abbrev main_c_15 : Ref sig .tc := ⟨.hbm, 93, rfl⟩
abbrev main_v62 : Ref sig .tc := ⟨.hbm, 94, rfl⟩
abbrev main_v63 : Ref sig .tc := ⟨.hbm, 95, rfl⟩
abbrev main_c_16 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_c_17 : Ref sig .tc := ⟨.hbm, 102, rfl⟩
abbrev main_v69 : Ref sig .tc := ⟨.hbm, 103, rfl⟩
abbrev main_v70 : Ref sig .tc := ⟨.hbm, 104, rfl⟩
abbrev main_c_18 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_c_19 : Ref sig .tc := ⟨.hbm, 112, rfl⟩
abbrev main_v77 : Ref sig .tc := ⟨.hbm, 113, rfl⟩
abbrev main_v78 : Ref sig .tc := ⟨.hbm, 114, rfl⟩
abbrev main_c_20 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_cst_21 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  shapeCasts_S256_S1x256 : S256.ShapeCasts S1x256
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  bcast_S_S256 : S_.BroadcastsInDim S256 (![] : Fin 0 → Fin S256.rank)
  shapeCasts_S5000x256_S5000x256 : S5000x256.ShapeCasts S5000x256
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  dot_S5000x256_S256x256_S5000x256_1_0_0_1_n_n_wf : DotDims.WF S5000x256 S256x256 S5000x256 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x256.size a ≤ S50000x256.size a
  hwx0_3 : ∀ i : grid0.Coords, EltTy.bits .f32 = 32 ∨ (Rect.block (s := S50000x256) S5000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x256.size a ≤ S50000x256.size a
  hwx1_3 : ∀ i : grid1.Coords, EltTy.bits .f32 = 32 ∨ (Rect.block (s := S50000x256) S5000x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x256.size a ≤ S50000x256.size a
  hwx2_0 : ∀ i : grid2.Coords, EltTy.bits .f32 = 32 ∨ (Rect.block (s := S50000x256) S5000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .f32 = 32 ∨ (Rect.block (s := S256x256) S256x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x256.size a ≤ S50000x256.size a
  hwx2_3 : ∀ i : grid2.Coords, EltTy.bits .f32 = 32 ∨ (Rect.block (s := S50000x256) S5000x256.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x256.size a ≤ S50000x256.size a
  hwx3_0 : ∀ i : grid3.Coords, EltTy.bits .f32 = 32 ∨ (Rect.block (s := S50000x256) S5000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x256.size a ≤ S256x256.size a
  hwx3_1 : ∀ i : grid3.Coords, EltTy.bits .f32 = 32 ∨ (Rect.block (s := S256x256) S256x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x256.size a ≤ S50000x256.size a
  hwx3_3 : ∀ i : grid3.Coords, EltTy.bits .f32 = 32 ∨ (Rect.block (s := S50000x256) S5000x256.size (cc3_transform_3 i) (hinb3_3 i)).WholeWords (EltTy.packing .f32)

variable [Facts₀]

def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S5000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v8) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v10) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v11) S5000x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v50) S5000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v52) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v53) S5000x256.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v92) S5000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg8) S256x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v93) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v94) S5000x256.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S1x256 : Shape := ⟨2, ![1, 256]⟩
abbrev S_ : Shape := ⟨0, ![]⟩
abbrev S850000x1 : Shape := ⟨2, ![850000, 1]⟩
abbrev S850000x256 : Shape := ⟨2, ![850000, 256]⟩

abbrev nBuf : Space → Nat
  | .hbm => 137
  | .vmem => 0
  | .smem => 0
  | _ => 0

abbrev hbmTy0_0 (i : Nat) : BufTy := match i % 128 with
  | 0 => ⟨S50000x256, .f32⟩
  | 1 => ⟨S2x800000, .i32⟩
  | 2 => ⟨S256x256, .f32⟩
  | 3 => ⟨S256, .f32⟩
  | 4 => ⟨S256x256, .f32⟩
  | 5 => ⟨S256, .f32⟩
  | 6 => ⟨S256x256, .f32⟩
  | 7 => ⟨S256, .f32⟩
  | 8 => ⟨S256x256, .f32⟩
  | 9 => ⟨S256, .f32⟩
  | 10 => ⟨S50000, .i32⟩
  | 11 => ⟨S1x800000, .i32⟩
  | 12 => ⟨S800000, .i32⟩
  | 13 => ⟨S850000, .i32⟩
  | 14 => ⟨S1x800000, .i32⟩
  | 15 => ⟨S800000, .i32⟩
  | 16 => ⟨S850000, .i32⟩
  | 17 => ⟨S50000x256, .f32⟩
  | 18 => ⟨S1x256, .f32⟩
  | 19 => ⟨S50000x256, .f32⟩
  | 20 => ⟨S50000x256, .f32⟩
  | 21 => ⟨S50000x256, .f32⟩
  | 22 => ⟨S_, .f32⟩
  | 23 => ⟨S850000, .f32⟩
  | 24 => ⟨S_, .f32⟩
  | 25 => ⟨S50000, .f32⟩
  | 26 => ⟨S850000x1, .i32⟩
  | 27 => ⟨S50000, .f32⟩
  | 28 => ⟨S_, .f32⟩
  | 29 => ⟨S50000, .f32⟩
  | 30 => ⟨S50000, .i1⟩
  | 31 => ⟨S50000, .f32⟩
  | 32 => ⟨S_, .f32⟩
  | 33 => ⟨S_, .f32⟩
  | 34 => ⟨S50000, .f32⟩
  | 35 => ⟨S50000, .f32⟩
  | 36 => ⟨S_, .i32⟩
  | 37 => ⟨S850000, .i32⟩
  | 38 => ⟨S850000, .i1⟩
  | 39 => ⟨S_, .i32⟩
  | 40 => ⟨S850000, .i32⟩
  | 41 => ⟨S850000, .i32⟩
  | 42 => ⟨S850000, .i32⟩
  | 43 => ⟨S850000x1, .i32⟩
  | 44 => ⟨S850000, .f32⟩
  | 45 => ⟨S_, .i32⟩
  | 46 => ⟨S850000, .i32⟩
  | 47 => ⟨S850000, .i1⟩
  | 48 => ⟨S_, .i32⟩
  | 49 => ⟨S850000, .i32⟩
  | 50 => ⟨S850000, .i32⟩
  | 51 => ⟨S850000, .i32⟩
  | 52 => ⟨S850000x1, .i32⟩
  | 53 => ⟨S850000, .f32⟩
  | 54 => ⟨S850000, .f32⟩
  | 55 => ⟨S_, .i32⟩
  | 56 => ⟨S850000, .i32⟩
  | 57 => ⟨S850000, .i1⟩
  | 58 => ⟨S_, .i32⟩
  | 59 => ⟨S850000, .i32⟩
  | 60 => ⟨S850000, .i32⟩
  | 61 => ⟨S850000, .i32⟩
  | 62 => ⟨S850000x1, .i32⟩
  | 63 => ⟨S850000x256, .f32⟩
  | 64 => ⟨S850000x1, .f32⟩
  | 65 => ⟨S850000x256, .f32⟩
  | 66 => ⟨S850000x256, .f32⟩
  | 67 => ⟨S_, .f32⟩
  | 68 => ⟨S50000x256, .f32⟩
  | 69 => ⟨S850000x1, .i32⟩
  | 70 => ⟨S50000x256, .f32⟩
  | 71 => ⟨S1x256, .f32⟩
  | 72 => ⟨S50000x256, .f32⟩
  | 73 => ⟨S50000x256, .f32⟩
  | 74 => ⟨S_, .f32⟩
  | 75 => ⟨S50000x256, .f32⟩
  | 76 => ⟨S50000x256, .f32⟩
  | 77 => ⟨S50000x256, .f32⟩
  | 78 => ⟨S_, .f32⟩
  | 79 => ⟨S850000, .f32⟩
  | 80 => ⟨S_, .f32⟩
  | 81 => ⟨S50000, .f32⟩
  | 82 => ⟨S850000x1, .i32⟩
  | 83 => ⟨S50000, .f32⟩
  | 84 => ⟨S_, .f32⟩
  | 85 => ⟨S50000, .f32⟩
  | 86 => ⟨S50000, .i1⟩
  | 87 => ⟨S50000, .f32⟩
  | 88 => ⟨S_, .f32⟩
  | 89 => ⟨S_, .f32⟩
  | 90 => ⟨S50000, .f32⟩
  | 91 => ⟨S50000, .f32⟩
  | 92 => ⟨S_, .i32⟩
  | 93 => ⟨S850000, .i32⟩
  | 94 => ⟨S850000, .i1⟩
  | 95 => ⟨S_, .i32⟩
  | 96 => ⟨S850000, .i32⟩
  | 97 => ⟨S850000, .i32⟩
  | 98 => ⟨S850000, .i32⟩
  | 99 => ⟨S850000x1, .i32⟩
  | 100 => ⟨S850000, .f32⟩
  | 101 => ⟨S_, .i32⟩
  | 102 => ⟨S850000, .i32⟩
  | 103 => ⟨S850000, .i1⟩
  | 104 => ⟨S_, .i32⟩
  | 105 => ⟨S850000, .i32⟩
  | 106 => ⟨S850000, .i32⟩
  | 107 => ⟨S850000, .i32⟩
  | 108 => ⟨S850000x1, .i32⟩
  | 109 => ⟨S850000, .f32⟩
  | 110 => ⟨S850000, .f32⟩
  | 111 => ⟨S_, .i32⟩
  | 112 => ⟨S850000, .i32⟩
  | 113 => ⟨S850000, .i1⟩
  | 114 => ⟨S_, .i32⟩
  | 115 => ⟨S850000, .i32⟩
  | 116 => ⟨S850000, .i32⟩
  | 117 => ⟨S850000, .i32⟩
  | 118 => ⟨S850000x1, .i32⟩
  | 119 => ⟨S850000x256, .f32⟩
  | 120 => ⟨S850000x1, .f32⟩
  | 121 => ⟨S850000x256, .f32⟩
  | 122 => ⟨S850000x256, .f32⟩
  | 123 => ⟨S_, .f32⟩
  | 124 => ⟨S50000x256, .f32⟩
  | 125 => ⟨S850000x1, .i32⟩
  | 126 => ⟨S50000x256, .f32⟩
  | 127 => ⟨S1x256, .f32⟩
  | _ => ⟨S50000x256, .f32⟩

abbrev hbmTy0_1 (i : Nat) : BufTy := match i % 128 with
  | 0 => ⟨S50000x256, .f32⟩
  | 1 => ⟨S50000x256, .f32⟩
  | 2 => ⟨S_, .f32⟩
  | 3 => ⟨S50000x256, .f32⟩
  | 4 => ⟨S50000x256, .f32⟩
  | 5 => ⟨S50000x256, .f32⟩
  | 6 => ⟨S1x256, .f32⟩
  | 7 => ⟨S50000x256, .f32⟩
  | 8 => ⟨S50000x256, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_cst_0 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_1 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_2 : Ref sig .tc := ⟨.hbm, 32, rfl⟩
abbrev main_call0_v0 : Ref sig .tc := ⟨.hbm, 33, rfl⟩
abbrev main_call0_v1 : Ref sig .tc := ⟨.hbm, 34, rfl⟩
abbrev main_v19 : Ref sig .tc := ⟨.hbm, 35, rfl⟩
abbrev main_c : Ref sig .tc := ⟨.hbm, 36, rfl⟩
abbrev main_v20 : Ref sig .tc := ⟨.hbm, 37, rfl⟩
abbrev main_v21 : Ref sig .tc := ⟨.hbm, 38, rfl⟩
abbrev main_c_3 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c_4 : Ref sig .tc := ⟨.hbm, 45, rfl⟩
abbrev main_v27 : Ref sig .tc := ⟨.hbm, 46, rfl⟩
abbrev main_v28 : Ref sig .tc := ⟨.hbm, 47, rfl⟩
abbrev main_c_5 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_c_6 : Ref sig .tc := ⟨.hbm, 55, rfl⟩
abbrev main_v35 : Ref sig .tc := ⟨.hbm, 56, rfl⟩
abbrev main_v36 : Ref sig .tc := ⟨.hbm, 57, rfl⟩
abbrev main_c_7 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_8 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_call1_cst : Ref sig .tc := ⟨.hbm, 74, rfl⟩
abbrev main_call1_v0 : Ref sig .tc := ⟨.hbm, 75, rfl⟩
abbrev main_v51 : Ref sig .tc := ⟨.hbm, 76, rfl⟩
abbrev main_v52 : Ref sig .tc := ⟨.hbm, 77, rfl⟩
abbrev main_cst_9 : Ref sig .tc := ⟨.hbm, 78, rfl⟩
abbrev main_v53 : Ref sig .tc := ⟨.hbm, 79, rfl⟩
abbrev main_cst_10 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_cst_11 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_cst_12 : Ref sig .tc := ⟨.hbm, 88, rfl⟩
abbrev main_call2_v0 : Ref sig .tc := ⟨.hbm, 89, rfl⟩
abbrev main_call2_v1 : Ref sig .tc := ⟨.hbm, 90, rfl⟩
abbrev main_v60 : Ref sig .tc := ⟨.hbm, 91, rfl⟩
abbrev main_c_13 : Ref sig .tc := ⟨.hbm, 92, rfl⟩
abbrev main_v61 : Ref sig .tc := ⟨.hbm, 93, rfl⟩
abbrev main_v62 : Ref sig .tc := ⟨.hbm, 94, rfl⟩
abbrev main_c_14 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_c_15 : Ref sig .tc := ⟨.hbm, 101, rfl⟩
abbrev main_v68 : Ref sig .tc := ⟨.hbm, 102, rfl⟩
abbrev main_v69 : Ref sig .tc := ⟨.hbm, 103, rfl⟩
abbrev main_c_16 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_c_17 : Ref sig .tc := ⟨.hbm, 111, rfl⟩
abbrev main_v76 : Ref sig .tc := ⟨.hbm, 112, rfl⟩
abbrev main_v77 : Ref sig .tc := ⟨.hbm, 113, rfl⟩
abbrev main_c_18 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_cst_19 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_call3_cst : Ref sig .tc := ⟨.hbm, 130, rfl⟩
abbrev main_call3_v0 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  dot_S50000x256_S256x256_S50000x256_1_0_0_1_n_n_wf : DotDims.WF S50000x256 S256x256 S50000x256 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1

variable [Facts₀]

def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf

class Facts : Prop extends Facts₀ where

variable [Facts]
-- ==== Proof.KRun.lean ====
/-
  The idealized kernel's run with its result named. The program is four kernel regions among stretches of host
  operations; run from any memory with zero counters, every weakly fair execution terminates, the argument arrays end
  as launched, and the result array ends at the contents the last region's write-backs leave: the fold of the host
  stretches and the regions' write-backs from the launch memory, read at the result's buffer.
-/
import proofs.«138221_j32031866093969_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates with the result array at the last boundary's contents and the arguments as
    launched: the segments' run, the last thread state read against the final state. -/
theorem run_named : θ_run defs (onTc (τ := τ) (main (F := F))) ⟨m, fun _ => 0, ρ⟩ (fun r => ∀ c : Dev nD,
      r.2.mem ((c.tc : Thread nD τ).loc main_v94) = W12 m ρ c (Proc.devRef .tc main_v94)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v94 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c)⟩)

end Cert.KernelIdeal.Hand

end
-- ==== Proof.HostK.lean ====
/-
  The host operations between the kernel regions, read back. Before the first region the program lays the edge list
  out as the messages' sources and targets (each followed by one self loop per node) and the first bias as a row; before
  the second it makes a zero row; between the second and the third, and between the third and the fourth, it runs the
  graph convolution's aggregation (`agg`) of the region's result and prepares the next region's one-row bias. Each
  stretch is read from ARBITRARY starting contents `W`: what it writes as a function of the buffers it reads, and
  that it leaves every other buffer alone.
-/
import proofs.«138221_j32031866093969_1_alg».proof.Proof.Gen.KernelIdeal.Launch
import Idealize.ShloMosaic.Lib.StableHlo.Run

set_option maxRecDepth 16384

noncomputable section

namespace Cert.KernelIdeal.Hand

open Cert.KernelIdeal Cert.KernelIdeal.Gen Idealize.ShloMosaic Idealize.ShloMosaic.TcCoe Idealize.SL.Sem Idealize.ShloMosaic.StableHlo

variable {F : FTy → Type} [FloatOps F]

/-- The source node of every message: the first row of the edge list, then every node once (the self loops). -/
def srcOf (e : (⟨S2x800000, .i32⟩ : BufTy).Contents (Elt F)) : (⟨S850000, .i32⟩ : BufTy).Contents (Elt F) :=
  concatenate S850000 0 [⟨S800000, (shapeCast _ (extractStridedSlice S1x800000 ![0, 0] e slices_S2x800000_S1x800000_0_0) shapeCasts_S1x800000_S800000)⟩, ⟨S50000, (iotaInDim S50000 32 0)⟩] concatenates_S800000_S50000_S850000_d0

/-- The target node of every message: the second row of the edge list, then every node once. -/
def dstOf (e : (⟨S2x800000, .i32⟩ : BufTy).Contents (Elt F)) : (⟨S850000, .i32⟩ : BufTy).Contents (Elt F) :=
  concatenate S850000 0 [⟨S800000, (shapeCast _ (extractStridedSlice S1x800000 ![1, 0] e slices_S2x800000_S1x800000_1_0) shapeCasts_S1x800000_S800000)⟩, ⟨S50000, (iotaInDim S50000 32 0)⟩] concatenates_S800000_S50000_S850000_d0

/-- A node index as the gathers read it: a negative one counted from the end. -/
def wrapIdx (s : (⟨S850000, .i32⟩ : BufTy).Contents (Elt F)) : (⟨S850000, .i32⟩ : BufTy).Contents (Elt F) :=
  select (cmpi .slt s (broadcastInDim S850000 ![] bcast_S_S850000 (constantI S_ 32 0#32))) (addi s (broadcastInDim S850000 ![] bcast_S_S850000 (constantI S_ 32 50000#32))) s

/-- Every node's in-degree: ones scattered and added at the messages' targets. -/
def degOf (dst : (⟨S850000, .i32⟩ : BufTy).Contents (Elt F)) : (⟨S50000, .f32⟩ : BufTy).Contents (Elt F) :=
  Host.scatterAdd scatter_S50000_S850000x1_S850000_n_0_0_1 (broadcastInDim S50000 ![] bcast_S_S50000 (constant S_ .f32 0x00000000#32)) (broadcastInDim S850000x1 ![0] bcast_S850000_S850000x1_0 dst) (broadcastInDim S850000 ![] bcast_S_S850000 (constant S_ .f32 0x3F800000#32))

/-- The inverse square root of the in-degree where it is positive, zero elsewhere. -/
def dinvOf (dst : (⟨S850000, .i32⟩ : BufTy).Contents (Elt F)) : (⟨S50000, .f32⟩ : BufTy).Contents (Elt F) :=
  select (cmpf .ogt (degOf dst) (broadcastInDim S50000 ![] bcast_S_S50000 (constant S_ .f32 0x00000000#32))) (Host.rsqrt (degOf dst)) (broadcastInDim S50000 ![] bcast_S_S50000 (id (constant (F := F) S_ .f32 0x00000000#32)))

/-- Every message's weight: the two endpoints' inverse square root degrees multiplied. -/
def normOf (src dst : (⟨S850000, .i32⟩ : BufTy).Contents (Elt F)) : (⟨S850000, .f32⟩ : BufTy).Contents (Elt F) :=
  mulf (Host.gather gather_S50000_S850000x1_S850000_n_0_n_n_0_1_1 (dinvOf dst) (broadcastInDim S850000x1 ![0] bcast_S850000_S850000x1_0 (wrapIdx src))) (Host.gather gather_S50000_S850000x1_S850000_n_0_n_n_0_1_1 (dinvOf dst) (broadcastInDim S850000x1 ![0] bcast_S850000_S850000x1_0 (wrapIdx dst)))

/-- The graph convolution's aggregation of node features `z`: every message is its source's row of `z` times the
    message's weight, the messages are added at their targets, and the bias is added to every row. -/
def agg (z : (⟨S50000x256, .f32⟩ : BufTy).Contents (Elt F)) (src dst : (⟨S850000, .i32⟩ : BufTy).Contents (Elt F)) (b : (⟨S256, .f32⟩ : BufTy).Contents (Elt F)) : (⟨S50000x256, .f32⟩ : BufTy).Contents (Elt F) :=
  addf (Host.scatterAdd scatter_S50000x256_S850000x1_S850000x256_1_0_0_1 (broadcastInDim S50000x256 ![] bcast_S_S50000x256 (constant S_ .f32 0x00000000#32)) (broadcastInDim S850000x1 ![0] bcast_S850000_S850000x1_0 dst) (mulf (Host.gather gather_S50000x256_S850000x1_S850000x256_1_0_n_n_0_1_1256 z (broadcastInDim S850000x1 ![0] bcast_S850000_S850000x1_0 (wrapIdx src))) (broadcastInDim S850000x256 ![0, 1] bcast_S850000x1_S850000x256_0_1 (broadcastInDim S850000x1 ![0] bcast_S850000_S850000x1_0 (normOf src dst))))) (broadcastInDim S50000x256 ![0, 1] bcast_S1x256_S50000x256_0_1 (broadcastInDim S1x256 ![1] bcast_S256_S1x256_1 b))

/-- A vector laid out as a one-row array. -/
def rowOf (b : (⟨S256, .f32⟩ : BufTy).Contents (Elt F)) : (⟨S1x256, .f32⟩ : BufTy).Contents (Elt F) :=
  shapeCast _ b shapeCasts_S256_S1x256

/-- The zero row. -/
def zeroRow : (⟨S1x256, .f32⟩ : BufTy).Contents (Elt F) :=
  shapeCast _ (broadcastInDim S256 ![] bcast_S_S256 (constant (F := F) S_ .f32 0x00000000#32)) shapeCasts_S256_S1x256

variable (W : Valuation τ sig (Elt F))

/-! ## Before the first region -/

theorem pre0_src : after hostOps0 W (Proc.devRef .tc main_v3) = srcOf (W (Proc.devRef .tc main_arg1)) := by
  unfold srcOf
  after_results
  rfl

theorem pre0_dst : after hostOps0 W (Proc.devRef .tc main_v6) = dstOf (W (Proc.devRef .tc main_arg1)) := by
  unfold dstOf
  after_results
  rfl

theorem pre0_bias : after hostOps0 W (Proc.devRef .tc main_v7) = rowOf (W (Proc.devRef .tc main_arg3)) := by
  unfold rowOf
  after_results
  rfl

/-! ## Before the second region -/

theorem pre1_bias : after hostOps1 W (Proc.devRef .tc main_v10) = zeroRow (F := F) := by
  unfold zeroRow
  after_results
  rfl

/-! ## Between the second and the third region -/

theorem pre2_agg : after hostOps2_2 (after hostOps2_1 (after hostOps2 W)) (Proc.devRef .tc main_v50)
    = agg (W (Proc.devRef .tc main_v11)) (W (Proc.devRef .tc main_v3)) (W (Proc.devRef .tc main_v6)) (W (Proc.devRef .tc main_arg5)) := by
  unfold agg normOf dinvOf degOf wrapIdx
  after_results_simp
  rfl

theorem pre2_bias : after hostOps2_2 (after hostOps2_1 (after hostOps2 W)) (Proc.devRef .tc main_v52) = zeroRow (F := F) := by
  unfold zeroRow
  after_results_simp
  rfl

/-! ## Between the third and the fourth region -/

theorem pre3_agg : after hostOps3_2 (after hostOps3_1 (after hostOps3 W)) (Proc.devRef .tc main_v92)
    = agg (W (Proc.devRef .tc main_v53)) (W (Proc.devRef .tc main_v3)) (W (Proc.devRef .tc main_v6)) (W (Proc.devRef .tc main_arg7)) := by
  unfold agg normOf dinvOf degOf wrapIdx
  after_results_simp
  rfl

theorem pre3_bias : after hostOps3_2 (after hostOps3_1 (after hostOps3 W)) (Proc.devRef .tc main_v93) = rowOf (W (Proc.devRef .tc main_arg9)) := by
  unfold rowOf
  after_results_simp
  rfl

end Cert.KernelIdeal.Hand

end
-- ==== Proof.LibPlainDot.lean ====
/-
  A plain matrix product read at an index. For the dimension numbers that contract the second axis of an `M × K`
  array with the first axis of a `K × N` array and keep the other two axes in order, both the `dot_general`
  of the two arrays and their `matmul` into a zero accumulator are, at the extended reals, the textbook sum
  `∑ k, X (r, k) · W (k, c)`: the contraction shape has one axis of extent `K`, its indices are re-indexed by `Fin K`,
  and each operand index is read coordinate by coordinate.
-/
import Idealize.ShloMosaic.PureOps.Ideal
import Idealize.ShloMosaic.PureOps.Ideal.Laws
import Idealize.ShloMosaic.Lib.ValueIdx

noncomputable section

open scoped BigOperators

namespace Cert.Proof.PlainDot

open Idealize.ShloMosaic Idealize.ShloMosaic.ValueIdx

variable {M K N : Nat}

/-- The left operand's row coordinate is the output's row coordinate: axis 0 of the left is its one free axis. -/
theorem lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The left operand's column coordinate is the contraction position: axis 1 of the left is the contracted one. -/
theorem lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row coordinate is the contraction position: axis 0 of the right is the contracted one. -/
theorem rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column coordinate is the output's column coordinate: axis 1 of the right is its one free axis. -/
theorem rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- At contraction position `k` (put on the contraction shape's one axis) the left operand is read at `(r, k)`. -/
theorem lhsIdx_plain (i : (⟨2, ![M, N]⟩ : Shape).Idx) (k : Fin K) :
    (DotDims.plain M K N).lhsIdx i ((contrEquiv1 (DotDims.plain M K N) K rfl rfl).symm k) = ix2 (i 0) k := by
  have hk := contrEquiv1_symm_val (DotDims.plain M K N) K rfl rfl k
  funext a
  refine Fin.ext ?_
  match a with
  | ⟨0, _⟩ => exact lhs_row i _
  | ⟨1, _⟩ => exact (lhs_col i _).trans hk

/-- At contraction position `k` the right operand is read at `(k, c)`. -/
theorem rhsIdx_plain (i : (⟨2, ![M, N]⟩ : Shape).Idx) (k : Fin K) :
    (DotDims.plain M K N).rhsIdx i ((contrEquiv1 (DotDims.plain M K N) K rfl rfl).symm k) = ix2 k (i 1) := by
  have hk := contrEquiv1_symm_val (DotDims.plain M K N) K rfl rfl k
  funext a
  refine Fin.ext ?_
  match a with
  | ⟨0, _⟩ => exact (rhs_row i _).trans hk
  | ⟨1, _⟩ => exact rhs_col i _

/-- The sum over the contraction shape's indices of the operands' products is the sum over `k : Fin K` of
    `X (r, k) · W (k, c)`. -/
theorem sum_contr_plain {φ₁ φ₂ : FTy} (X : FVec Ideal ⟨2, ![M, K]⟩ φ₁) (W : FVec Ideal ⟨2, ![K, N]⟩ φ₂)
    (i : (⟨2, ![M, N]⟩ : Shape).Idx) :
    (∑ q : (DotDims.plain M K N).contr.Idx, X ((DotDims.plain M K N).lhsIdx i q) * W ((DotDims.plain M K N).rhsIdx i q))
      = ∑ k : Fin K, X (ix2 (i 0) k) * W (ix2 k (i 1)) := by
  rw [← Equiv.sum_comp (contrEquiv1 (DotDims.plain M K N) K rfl rfl).symm]
  refine Finset.sum_congr rfl fun k _ => ?_
  exact congrArg₂ (· * ·) (congrArg X (lhsIdx_plain i k)) (congrArg W (rhsIdx_plain i k))

/-- The `dot_general` with the plain dimension numbers, at the extended reals, is the matrix product:
    entry `(r, c)` is `∑ k, X (r, k) · W (k, c)`, whatever the precision and the schedule key. -/
theorem dotGeneral_plain {φ₁ φ₂ : FTy} (prec : Option ContractPrecision) (sched : HostSchedule)
    (X : FVec Ideal ⟨2, ![M, K]⟩ φ₁) (W : FVec Ideal ⟨2, ![K, N]⟩ φ₂) (i : (⟨2, ![M, N]⟩ : Shape).Idx) :
    FloatOps.dotGeneral (DotDims.plain M K N) prec sched X W i = ∑ k : Fin K, X (ix2 (i 0) k) * W (ix2 k (i 1)) := by
  rw [Ideal.dotGeneral_apply]
  exact sum_contr_plain X W i

/-- The `matmul` with the plain dimension numbers into the zero accumulator, at the extended reals, is the matrix
    product: entry `(r, c)` is `∑ k, X (r, k) · W (k, c)`. -/
theorem matmul_plain_zero {φ₁ φ₂ : FTy} (prec : Option ContractPrecision)
    (X : FVec Ideal ⟨2, ![M, K]⟩ φ₁) (W : FVec Ideal ⟨2, ![K, N]⟩ φ₂) (i : (⟨2, ![M, N]⟩ : Shape).Idx) :
    FloatOps.matmul (DotDims.plain M K N) prec X W (constant ⟨2, ![M, N]⟩ .f32 0x00000000#32) i
      = ∑ k : Fin K, X (ix2 (i 0) k) * W (ix2 k (i 1)) := by
  rw [Ideal.matmul_constant_zero_apply]
  exact sum_contr_plain X W i

end Cert.Proof.PlainDot

end
-- ==== Proof.Spec.lean ====
/-
  The affine layer as one function of whole arrays, and its two host spellings.

  `linRow A W b` is the array whose entry (r, c) is `∑ k, A (r, k) · W (k, c) + b (0, c)`: a 50000 × 256 array times a
  256 × 256 array, plus a one-row array added to every row. On the extended reals it is the host's `dot_general` of the
  two arrays plus the bias vector broadcast over the rows, when the one-row array is that vector laid as a row; and it
  is the bare `dot_general` when the one-row array is the zero row, since adding zero changes no extended real.
  `reluArr g` clamps every entry of `g` below at the zero word's value, which is the host's `maximum` with the zero splat.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«138221_j32031866093969_1_alg».proof.Proof.LibPlainDot

noncomputable section

open scoped BigOperators

namespace Cert.Proof.Lin

open Idealize.ShloMosaic Idealize.ShloMosaic.ValueIdx

abbrev SA : Shape := ⟨2, ![50000, 256]⟩
abbrev SW : Shape := ⟨2, ![256, 256]⟩
abbrev SR : Shape := ⟨2, ![1, 256]⟩
abbrev SV : Shape := ⟨1, ![256]⟩
abbrev S0 : Shape := ⟨0, ![]⟩

/-- The affine layer with a one-row bias: entry (r, c) is `∑ k, A (r, k) · W (k, c) + b (0, c)`. -/
def linRow (A : FVec Ideal SA .f32) (W : FVec Ideal SW .f32) (b : FVec Ideal SR .f32) : FVec Ideal SA .f32 :=
  fun i => (∑ k : Fin 256, A (ix2 (i 0) k) * W (ix2 k (i 1))) + b (ix2 (0 : Fin 1) (i 1))

/-- Every entry clamped below at the value of the zero word. -/
def reluArr (g : FVec Ideal SA .f32) : FVec Ideal SA .f32 :=
  fun i => max (g i) (Ideal.ofBits .f32 0x00000000#32)

/-- The affine layer read at entry (r, c). -/
theorem linRow_apply (A : FVec Ideal SA .f32) (W : FVec Ideal SW .f32) (b : FVec Ideal SR .f32) (r : Fin 50000) (q : Fin 256) :
    linRow A W b (ix2 r q) = (∑ k : Fin 256, A (ix2 r k) * W (ix2 k q)) + b (ix2 (0 : Fin 1) q) := rfl

/-- The clamp read at an entry. -/
theorem reluArr_apply (g : FVec Ideal SA .f32) (i : SA.Idx) : reluArr g i = max (g i) (Ideal.ofBits .f32 0x00000000#32) := rfl

/-- The host's `maximum` with the zero splat is the clamp. -/
theorem maximum_zero_eq (g : FVec Ideal SA .f32) (h : S0.BroadcastsInDim SA ![]) :
    maximumf g (broadcastInDim SA ![] h (constant (F := Ideal) S0 .f32 0x00000000#32)) = reluArr g := by
  funext i
  rfl

end Cert.Proof.Lin

end
-- ==== Proof.KNet.lean ====
/-
  The idealized kernel's program as one function of its arguments: an affine layer of the node features, two rounds
  of "affine layer with no bias, then aggregation over the edges" — the second round on features clamped below at zero —,
  and an affine layer of the clamped result.
-/
import proofs.«138221_j32031866093969_1_alg».proof.Proof.Spec
import proofs.«138221_j32031866093969_1_alg».proof.Proof.HostK

noncomputable section

namespace Cert.KernelIdeal.Hand

open Cert.KernelIdeal Cert.Proof.Lin Idealize.ShloMosaic

/-- The kernel's program, stage by stage. -/
def kernNet (x : (⟨S50000x256, .f32⟩ : BufTy).Contents (Elt Ideal)) (e : (⟨S2x800000, .i32⟩ : BufTy).Contents (Elt Ideal))
    (wPre : (⟨S256x256, .f32⟩ : BufTy).Contents (Elt Ideal)) (bPre : (⟨S256, .f32⟩ : BufTy).Contents (Elt Ideal))
    (w1 : (⟨S256x256, .f32⟩ : BufTy).Contents (Elt Ideal)) (b1 : (⟨S256, .f32⟩ : BufTy).Contents (Elt Ideal))
    (w2 : (⟨S256x256, .f32⟩ : BufTy).Contents (Elt Ideal)) (b2 : (⟨S256, .f32⟩ : BufTy).Contents (Elt Ideal))
    (wPost : (⟨S256x256, .f32⟩ : BufTy).Contents (Elt Ideal)) (bPost : (⟨S256, .f32⟩ : BufTy).Contents (Elt Ideal)) : (⟨S50000x256, .f32⟩ : BufTy).Contents (Elt Ideal) :=
  linRow (reluArr (agg (linRow (reluArr (agg (linRow (linRow x wPre (rowOf bPre)) w1 (zeroRow (F := Ideal))) (srcOf e) (dstOf e) b1)) w2 (zeroRow (F := Ideal))) (srcOf e) (dstOf e) b2)) wPost (rowOf bPost)

end Cert.KernelIdeal.Hand

end
-- ==== Proof.Pay.lean ====
/-
  What each kernel body stores, read at an entry. Each of the four bodies multiplies its block of rows (for the last two
  bodies clamped below at zero first) by the weight matrix, from the zero accumulator, and adds the one-row bias to every
  row. On the extended reals the changes of float format are the identity and the product into the zero accumulator is
  the plain sum, so entry (p, q) of what is stored is `∑ k, x (p, k) · w (k, q) + b (0, q)`.
-/
import proofs.«138221_j32031866093969_1_alg».proof.Proof.Gen.KernelIdeal.Skeleton
import proofs.«138221_j32031866093969_1_alg».proof.Proof.LibPlainDot
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Hand

open Cert.KernelIdeal Cert.KernelIdeal.Gen Idealize.ShloMosaic Idealize.ShloMosaic.ValueIdx

/-- A block of rows times the weights from the zero accumulator, plus the bias row on every row, at entry (p, q). -/
theorem product_bias_at {φ₁ φ₂ : FTy} (X : FVec Ideal S5000x256 φ₁) (Wt : FVec Ideal S256x256 φ₂) (b : FVec Ideal S1x256 .f32)
    (p : Fin 5000) (q : Fin 256) :
    addf (matmul dot_S5000x256_S256x256_S5000x256_1_0_0_1_n_n none X Wt (constant S5000x256 .f32 0x00000000#32))
        (broadcastTo S5000x256 (shapeCast S1x256 b shapeCasts_S1x256_S1x256) broadcasts_S1x256_S5000x256) (ix2 p q)
      = (∑ k : Fin 256, X (ix2 p k) * Wt (ix2 k q)) + b (ix2 (0 : Fin 1) q) := by
  rw [shapeCast_self]
  refine congrArg₂ (· + ·) ?_ ?_
  · exact Cert.Proof.PlainDot.matmul_plain_zero none X Wt (ix2 p q)
  · exact broadcastTo_1b_ab_apply b broadcasts_S1x256_S5000x256 p q

/-- The first body's store at entry (p, q). -/
theorem pay0_at (x0 : Vec Ideal S5000x256 .f32) (x1 : Vec Ideal S256x256 .f32) (x2 : Vec Ideal S1x256 .f32) (p : Fin 5000) (q : Fin 256) :
    k0_pay1 (F := Ideal) x0 x1 x2 (ix2 p q) = (∑ k : Fin 256, x0 (ix2 p k) * x1 (ix2 k q)) + x2 (ix2 (0 : Fin 1) q) := by
  unfold k0_pay1
  exact product_bias_at (truncf .bf16 x0 bitsLt_bf16_f32) (truncf .bf16 x1 bitsLt_bf16_f32) x2 p q

/-- The second body's store at entry (p, q). -/
theorem pay1_at (x0 : Vec Ideal S5000x256 .f32) (x1 : Vec Ideal S256x256 .f32) (x2 : Vec Ideal S1x256 .f32) (p : Fin 5000) (q : Fin 256) :
    k1_pay1 (F := Ideal) x0 x1 x2 (ix2 p q) = (∑ k : Fin 256, x0 (ix2 p k) * x1 (ix2 k q)) + x2 (ix2 (0 : Fin 1) q) := by
  unfold k1_pay1
  rw [shapeCast_self]
  exact product_bias_at (truncf .bf16 x0 bitsLt_bf16_f32) (truncf .bf16 x1 bitsLt_bf16_f32) x2 p q

/-- The third body's store at entry (p, q): the block is clamped below at zero before the product. -/
theorem pay2_at (x0 : Vec Ideal S5000x256 .f32) (x1 : Vec Ideal S256x256 .f32) (x2 : Vec Ideal S1x256 .f32) (p : Fin 5000) (q : Fin 256) :
    k2_pay1 (F := Ideal) x0 x1 x2 (ix2 p q)
      = (∑ k : Fin 256, max (x0 (ix2 p k)) (Ideal.ofBits .f32 0x00000000#32) * x1 (ix2 k q)) + x2 (ix2 (0 : Fin 1) q) := by
  unfold k2_pay1
  rw [shapeCast_self]
  exact product_bias_at (truncf .bf16 (maximumf x0 (broadcast S5000x256 (Scalar.ofBits (F := Ideal) .f32 0x00000000#32))) bitsLt_bf16_f32)
    (truncf .bf16 x1 bitsLt_bf16_f32) x2 p q

/-- The fourth body's store at entry (p, q): as the third's. -/
theorem pay3_at (x0 : Vec Ideal S5000x256 .f32) (x1 : Vec Ideal S256x256 .f32) (x2 : Vec Ideal S1x256 .f32) (p : Fin 5000) (q : Fin 256) :
    k3_pay1 (F := Ideal) x0 x1 x2 (ix2 p q)
      = (∑ k : Fin 256, max (x0 (ix2 p k)) (Ideal.ofBits .f32 0x00000000#32) * x1 (ix2 k q)) + x2 (ix2 (0 : Fin 1) q) := by
  unfold k3_pay1
  rw [shapeCast_self]
  exact product_bias_at (truncf .bf16 (maximumf x0 (broadcast S5000x256 (Scalar.ofBits (F := Ideal) .f32 0x00000000#32))) bitsLt_bf16_f32)
    (truncf .bf16 x1 bitsLt_bf16_f32) x2 p q

end Cert.KernelIdeal.Hand

end
-- ==== Proof.Region0.lean ====
/-
  The first kernel region read as one function of whole arrays. The region walks ten blocks of 5000 rows; at block `t`
  its body reads rows `5000 t … 5000 t + 4999` of the row operand, the whole weight matrix and the whole one-row bias, and
  writes the same rows of the result. Entry (p, q) of what it writes is `∑ k, x (5000 t + p, k) · w (k, q) + b (0, q)`, which is entry `(5000 t + p, q)` of the affine layer of the whole arrays; the ten blocks cover every row, so
  the result array ends at the affine layer of the arrays the region was entered with.
-/
import proofs.«138221_j32031866093969_1_alg».proof.Proof.Gen.KernelIdeal.Frame
import proofs.«138221_j32031866093969_1_alg».proof.Proof.Pay
import proofs.«138221_j32031866093969_1_alg».proof.Proof.Spec
import Idealize.ShloMosaic.Lib.Pipeline.Value

set_option maxRecDepth 16384

noncomputable section

open scoped BigOperators

namespace Cert.KernelIdeal.Hand

open Cert.KernelIdeal Cert.KernelIdeal.Gen Cert.Proof.Lin
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_offsets0 : (![0, 0] : Fin 2 → Nat) = fun _ => 0 := funext fun a => by fin_cases a <;> rfl

/-- The block index maps over the grid: the row operand and the result move one block of rows per point, the weights
    and the bias stay at block (0, 0). -/
theorem block_indices0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The row operand's block at point `t`, entry (p, k), is entry `(5000 t + p, k)` of its array. -/
theorem rows_block0 (c : Dev nD) (t : Fin cfg0.N) (p : Fin 5000) (k : Fin 256) (r : Fin 50000) (hr : r.val = 5000 * t.val + p.val) :
    (iblk0 V c 0 t : S5000x256.Idx → Elt Ideal .f32) (ix2 p k) = (V c main_arg0 : S50000x256.Idx → Elt Ideal .f32) (ix2 r k) := by
  obtain ⟨e0, e1, -⟩ := block_indices0 t
  unfold iblk0
  rw [View.read_apply]
  show (V c main_arg0 : S50000x256.Idx → Elt Ideal .f32) _ = _
  refine congrArg _ (funext fun a => Fin.ext ?_)
  match a with
  | ⟨0, _⟩ => show win0_0.index t (0 : Fin 2) * 5000 + 1 * p.val = r.val; rw [e0, hr]; omega
  | ⟨1, _⟩ => show win0_0.index t (1 : Fin 2) * 256 + 1 * k.val = k.val; rw [e1]; omega

/-- The weights' block at every point is the whole matrix. -/
theorem weights_block0 (c : Dev nD) (t : Fin cfg0.N) (k q : Fin 256) :
    (iblk0 V c 1 t : S256x256.Idx → Elt Ideal .f32) (ix2 k q) = (V c main_arg2 : S256x256.Idx → Elt Ideal .f32) (ix2 k q) := by
  obtain ⟨-, -, e0, e1, -⟩ := block_indices0 t
  unfold iblk0
  rw [View.read_apply]
  show (V c main_arg2 : S256x256.Idx → Elt Ideal .f32) _ = _
  refine congrArg _ (funext fun a => Fin.ext ?_)
  match a with
  | ⟨0, _⟩ => show win0_1.index t (0 : Fin 2) * 256 + 1 * k.val = k.val; rw [e0]; omega
  | ⟨1, _⟩ => show win0_1.index t (1 : Fin 2) * 256 + 1 * q.val = q.val; rw [e1]; omega

/-- The bias row's block at every point is the whole row. -/
theorem bias_block0 (c : Dev nD) (t : Fin cfg0.N) (q : Fin 256) :
    (iblk0 V c 2 t : S1x256.Idx → Elt Ideal .f32) (ix2 (0 : Fin 1) q) = (V c main_v7 : S1x256.Idx → Elt Ideal .f32) (ix2 (0 : Fin 1) q) := by
  obtain ⟨-, -, -, -, e0, e1, -⟩ := block_indices0 t
  unfold iblk0
  rw [View.read_apply]
  show (V c main_v7 : S1x256.Idx → Elt Ideal .f32) _ = _
  refine congrArg _ (funext fun a => Fin.ext ?_)
  match a with
  | ⟨0, _⟩ => show win0_2.index t (0 : Fin 2) * 1 + 1 * (0 : Fin 1).val = (0 : Fin 1).val; rw [e0]; rfl
  | ⟨1, _⟩ => show win0_2.index t (1 : Fin 2) * 256 + 1 * q.val = q.val; rw [e1]; omega

/-- What point `t` writes back is block `t` of the affine layer of the arrays as the region finds them. -/
theorem written_block0 (c : Dev nD) (t : Fin cfg0.N) :
    (dat0 V c).flushed 3 t = ((cfg0.win 3).blk t).view.read (Elt Ideal) (linRow (V c main_arg0 : S50000x256.Idx → Elt Ideal .f32) (V c main_arg2 : S256x256.Idx → Elt Ideal .f32) (V c main_v7 : S1x256.Idx → Elt Ideal .f32)) := by
  show (cfg0.win 3).cut (grid0.coords t) ((dat0 V c).after 3 t) = _
  rw [after0_3]
  unfold out0_3
  rw [View.canon_unit_zero zero_offsets0]
  simp only [View.ld_unit_zero (S := S5000x256) zero_offsets0, View.ld_unit_zero (S := S256x256) zero_offsets0, View.ld_unit_zero (S := S1x256) zero_offsets0]
  have ht : t.val < 10 := lt_of_lt_of_eq t.isLt (show cfg0.N = 10 from N_0)
  obtain ⟨-, -, -, -, -, -, e0, e1⟩ := block_indices0 t
  funext y
  obtain ⟨p, q, rfl⟩ : ∃ (p : Fin 5000) (q : Fin 256), (y : S5000x256.Idx) = ix2 p q := ⟨y 0, y 1, eq_ix2 y⟩
  have hp : p.val < 5000 := p.isLt
  let r : Fin 50000 := ⟨5000 * t.val + p.val, by omega⟩
  have hemb : ((cfg0.win 3).blk t).view.emb (ix2 p q) = (ix2 r q : S50000x256.Idx) := by
    refine funext fun a => Fin.ext ?_
    match a with
    | ⟨0, _⟩ => show win0_3.index t (0 : Fin 2) * 5000 + 1 * p.val = 5000 * t.val + p.val; rw [e0]; omega
    | ⟨1, _⟩ => show win0_3.index t (1 : Fin 2) * 256 + 1 * q.val = q.val; rw [e1]; omega
  show k0_pay1 (iblk0 V c 0 t) (iblk0 V c 1 t) (iblk0 V c 2 t) (ix2 p q) = linRow (V c main_arg0 : S50000x256.Idx → Elt Ideal .f32) (V c main_arg2 : S256x256.Idx → Elt Ideal .f32) (V c main_v7 : S1x256.Idx → Elt Ideal .f32) (((cfg0.win 3).blk t).view.emb (ix2 p q))
  rw [hemb]
  refine (pay0_at (iblk0 V c 0 t) (iblk0 V c 1 t) (iblk0 V c 2 t) p q).trans ?_
  rw [linRow_apply]
  refine congrArg₂ (· + ·) (Finset.sum_congr rfl fun k _ => congrArg₂ (· * ·) ?_ (weights_block0 V c t k q)) (bias_block0 V c t q)
  exact rows_block0 V c t p k r rfl

/-- Every entry of the result array lies in some point's block: row `r` in the block of point `r / 5000`. -/
theorem rows_covered0 (i : S50000x256.Idx) :
    ∃ t : Fin cfg0.N, (cfg0.win 3).flush t = true ∧ i ∈ ((cfg0.win 3).blk t).view.set := by
  have hi0 : (i 0).val < 50000 := (i 0).isLt
  have hi1 : (i 1).val < 256 := (i 1).isLt
  let t : Fin cfg0.N := ⟨(i 0).val / 5000, by rw [show cfg0.N = 10 from N_0]; omega⟩
  obtain ⟨-, -, -, -, -, -, e0, e1⟩ := block_indices0 t
  refine ⟨t, flush0_3 t, ?_⟩
  show i ∈ ((View.whole main_v8).slice (win0_3.rect t)).set
  rw [View.set_slice_whole, Rect.mem_set_unit]
  intro a
  have htv : t.val = (i 0).val / 5000 := rfl
  match a with
  | ⟨0, _⟩ => show win0_3.index t (0 : Fin 2) * 5000 ≤ (i 0).val ∧ (i 0).val < win0_3.index t (0 : Fin 2) * 5000 + 5000; rw [e0, htv]; omega
  | ⟨1, _⟩ => show win0_3.index t (1 : Fin 2) * 256 ≤ (i 1).val ∧ (i 1).val < win0_3.index t (1 : Fin 2) * 256 + 256; rw [e1]; omega

/-- The result array after the region: the affine layer of the arrays the region was entered with. -/
theorem region0_result (c : Dev nD) :
    (dat0 V c).arrAt 3 cfg0.N = linRow (V c main_arg0 : S50000x256.Idx → Elt Ideal .f32) (V c main_arg2 : S256x256.Idx → Elt Ideal .f32) (V c main_v7 : S1x256.Idx → Elt Ideal .f32) :=
  (dat0 V c).arrAt_eq_of_cover 3 (linRow (V c main_arg0 : S50000x256.Idx → Elt Ideal .f32) (V c main_arg2 : S256x256.Idx → Elt Ideal .f32) (V c main_v7 : S1x256.Idx → Elt Ideal .f32)) (fun t _ => written_block0 V c t) (rows_covered0)

end Cert.KernelIdeal.Hand

end
-- ==== Proof.Region1.lean ====
/-
  The second kernel region read as one function of whole arrays. The region walks ten blocks of 5000 rows; at block `t`
  its body reads rows `5000 t … 5000 t + 4999` of the row operand, the whole weight matrix and the whole one-row bias, and
  writes the same rows of the result. Entry (p, q) of what it writes is `∑ k, x (5000 t + p, k) · w (k, q) + b (0, q)`, which is entry `(5000 t + p, q)` of the affine layer of the whole arrays; the ten blocks cover every row, so
  the result array ends at the affine layer of the arrays the region was entered with.
-/
import proofs.«138221_j32031866093969_1_alg».proof.Proof.Gen.KernelIdeal.Frame
import proofs.«138221_j32031866093969_1_alg».proof.Proof.Pay
import proofs.«138221_j32031866093969_1_alg».proof.Proof.Spec
import Idealize.ShloMosaic.Lib.Pipeline.Value

set_option maxRecDepth 16384

noncomputable section

open scoped BigOperators

namespace Cert.KernelIdeal.Hand

open Cert.KernelIdeal Cert.KernelIdeal.Gen Cert.Proof.Lin
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_offsets1 : (![0, 0] : Fin 2 → Nat) = fun _ => 0 := funext fun a => by fin_cases a <;> rfl

/-- The block index maps over the grid: the row operand and the result move one block of rows per point, the weights
    and the bias stay at block (0, 0). -/
theorem block_indices1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The row operand's block at point `t`, entry (p, k), is entry `(5000 t + p, k)` of its array. -/
theorem rows_block1 (c : Dev nD) (t : Fin cfg1.N) (p : Fin 5000) (k : Fin 256) (r : Fin 50000) (hr : r.val = 5000 * t.val + p.val) :
    (iblk1 V c 0 t : S5000x256.Idx → Elt Ideal .f32) (ix2 p k) = (V c main_v8 : S50000x256.Idx → Elt Ideal .f32) (ix2 r k) := by
  obtain ⟨e0, e1, -⟩ := block_indices1 t
  unfold iblk1
  rw [View.read_apply]
  show (V c main_v8 : S50000x256.Idx → Elt Ideal .f32) _ = _
  refine congrArg _ (funext fun a => Fin.ext ?_)
  match a with
  | ⟨0, _⟩ => show win1_0.index t (0 : Fin 2) * 5000 + 1 * p.val = r.val; rw [e0, hr]; omega
  | ⟨1, _⟩ => show win1_0.index t (1 : Fin 2) * 256 + 1 * k.val = k.val; rw [e1]; omega

/-- The weights' block at every point is the whole matrix. -/
theorem weights_block1 (c : Dev nD) (t : Fin cfg1.N) (k q : Fin 256) :
    (iblk1 V c 1 t : S256x256.Idx → Elt Ideal .f32) (ix2 k q) = (V c main_arg4 : S256x256.Idx → Elt Ideal .f32) (ix2 k q) := by
  obtain ⟨-, -, e0, e1, -⟩ := block_indices1 t
  unfold iblk1
  rw [View.read_apply]
  show (V c main_arg4 : S256x256.Idx → Elt Ideal .f32) _ = _
  refine congrArg _ (funext fun a => Fin.ext ?_)
  match a with
  | ⟨0, _⟩ => show win1_1.index t (0 : Fin 2) * 256 + 1 * k.val = k.val; rw [e0]; omega
  | ⟨1, _⟩ => show win1_1.index t (1 : Fin 2) * 256 + 1 * q.val = q.val; rw [e1]; omega

/-- The bias row's block at every point is the whole row. -/
theorem bias_block1 (c : Dev nD) (t : Fin cfg1.N) (q : Fin 256) :
    (iblk1 V c 2 t : S1x256.Idx → Elt Ideal .f32) (ix2 (0 : Fin 1) q) = (V c main_v10 : S1x256.Idx → Elt Ideal .f32) (ix2 (0 : Fin 1) q) := by
  obtain ⟨-, -, -, -, e0, e1, -⟩ := block_indices1 t
  unfold iblk1
  rw [View.read_apply]
  show (V c main_v10 : S1x256.Idx → Elt Ideal .f32) _ = _
  refine congrArg _ (funext fun a => Fin.ext ?_)
  match a with
  | ⟨0, _⟩ => show win1_2.index t (0 : Fin 2) * 1 + 1 * (0 : Fin 1).val = (0 : Fin 1).val; rw [e0]; rfl
  | ⟨1, _⟩ => show win1_2.index t (1 : Fin 2) * 256 + 1 * q.val = q.val; rw [e1]; omega

/-- What point `t` writes back is block `t` of the affine layer of the arrays as the region finds them. -/
theorem written_block1 (c : Dev nD) (t : Fin cfg1.N) :
    (dat1 V c).flushed 3 t = ((cfg1.win 3).blk t).view.read (Elt Ideal) (linRow (V c main_v8 : S50000x256.Idx → Elt Ideal .f32) (V c main_arg4 : S256x256.Idx → Elt Ideal .f32) (V c main_v10 : S1x256.Idx → Elt Ideal .f32)) := by
  show (cfg1.win 3).cut (grid1.coords t) ((dat1 V c).after 3 t) = _
  rw [after1_3]
  unfold out1_3
  rw [View.canon_unit_zero zero_offsets1]
  simp only [View.ld_unit_zero (S := S5000x256) zero_offsets1, View.ld_unit_zero (S := S256x256) zero_offsets1, View.ld_unit_zero (S := S1x256) zero_offsets1]
  have ht : t.val < 10 := lt_of_lt_of_eq t.isLt (show cfg1.N = 10 from N_1)
  obtain ⟨-, -, -, -, -, -, e0, e1⟩ := block_indices1 t
  funext y
  obtain ⟨p, q, rfl⟩ : ∃ (p : Fin 5000) (q : Fin 256), (y : S5000x256.Idx) = ix2 p q := ⟨y 0, y 1, eq_ix2 y⟩
  have hp : p.val < 5000 := p.isLt
  let r : Fin 50000 := ⟨5000 * t.val + p.val, by omega⟩
  have hemb : ((cfg1.win 3).blk t).view.emb (ix2 p q) = (ix2 r q : S50000x256.Idx) := by
    refine funext fun a => Fin.ext ?_
    match a with
    | ⟨0, _⟩ => show win1_3.index t (0 : Fin 2) * 5000 + 1 * p.val = 5000 * t.val + p.val; rw [e0]; omega
    | ⟨1, _⟩ => show win1_3.index t (1 : Fin 2) * 256 + 1 * q.val = q.val; rw [e1]; omega
  show k1_pay1 (iblk1 V c 0 t) (iblk1 V c 1 t) (iblk1 V c 2 t) (ix2 p q) = linRow (V c main_v8 : S50000x256.Idx → Elt Ideal .f32) (V c main_arg4 : S256x256.Idx → Elt Ideal .f32) (V c main_v10 : S1x256.Idx → Elt Ideal .f32) (((cfg1.win 3).blk t).view.emb (ix2 p q))
  rw [hemb]
  refine (pay1_at (iblk1 V c 0 t) (iblk1 V c 1 t) (iblk1 V c 2 t) p q).trans ?_
  rw [linRow_apply]
  refine congrArg₂ (· + ·) (Finset.sum_congr rfl fun k _ => congrArg₂ (· * ·) ?_ (weights_block1 V c t k q)) (bias_block1 V c t q)
  exact rows_block1 V c t p k r rfl

/-- Every entry of the result array lies in some point's block: row `r` in the block of point `r / 5000`. -/
theorem rows_covered1 (i : S50000x256.Idx) :
    ∃ t : Fin cfg1.N, (cfg1.win 3).flush t = true ∧ i ∈ ((cfg1.win 3).blk t).view.set := by
  have hi0 : (i 0).val < 50000 := (i 0).isLt
  have hi1 : (i 1).val < 256 := (i 1).isLt
  let t : Fin cfg1.N := ⟨(i 0).val / 5000, by rw [show cfg1.N = 10 from N_1]; omega⟩
  obtain ⟨-, -, -, -, -, -, e0, e1⟩ := block_indices1 t
  refine ⟨t, flush1_3 t, ?_⟩
  show i ∈ ((View.whole main_v11).slice (win1_3.rect t)).set
  rw [View.set_slice_whole, Rect.mem_set_unit]
  intro a
  have htv : t.val = (i 0).val / 5000 := rfl
  match a with
  | ⟨0, _⟩ => show win1_3.index t (0 : Fin 2) * 5000 ≤ (i 0).val ∧ (i 0).val < win1_3.index t (0 : Fin 2) * 5000 + 5000; rw [e0, htv]; omega
  | ⟨1, _⟩ => show win1_3.index t (1 : Fin 2) * 256 ≤ (i 1).val ∧ (i 1).val < win1_3.index t (1 : Fin 2) * 256 + 256; rw [e1]; omega

/-- The result array after the region: the affine layer of the arrays the region was entered with. -/
theorem region1_result (c : Dev nD) :
    (dat1 V c).arrAt 3 cfg1.N = linRow (V c main_v8 : S50000x256.Idx → Elt Ideal .f32) (V c main_arg4 : S256x256.Idx → Elt Ideal .f32) (V c main_v10 : S1x256.Idx → Elt Ideal .f32) :=
  (dat1 V c).arrAt_eq_of_cover 3 (linRow (V c main_v8 : S50000x256.Idx → Elt Ideal .f32) (V c main_arg4 : S256x256.Idx → Elt Ideal .f32) (V c main_v10 : S1x256.Idx → Elt Ideal .f32)) (fun t _ => written_block1 V c t) (rows_covered1)

end Cert.KernelIdeal.Hand

end
-- ==== Proof.Region2.lean ====
/-
  The third kernel region read as one function of whole arrays. The region walks ten blocks of 5000 rows; at block `t`
  its body reads rows `5000 t … 5000 t + 4999` of the row operand, the whole weight matrix and the whole one-row bias, and
  writes the same rows of the result. Entry (p, q) of what it writes is `∑ k, x (5000 t + p, k) · w (k, q) + b (0, q)` with
  `x` clamped below at zero, which is entry `(5000 t + p, q)` of the affine layer of the whole arrays; the ten blocks cover every row, so
  the result array ends at the affine layer of the arrays the region was entered with.
-/
import proofs.«138221_j32031866093969_1_alg».proof.Proof.Gen.KernelIdeal.Frame
import proofs.«138221_j32031866093969_1_alg».proof.Proof.Pay
import proofs.«138221_j32031866093969_1_alg».proof.Proof.Spec
import Idealize.ShloMosaic.Lib.Pipeline.Value

set_option maxRecDepth 16384

noncomputable section

open scoped BigOperators

namespace Cert.KernelIdeal.Hand

open Cert.KernelIdeal Cert.KernelIdeal.Gen Cert.Proof.Lin
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_offsets2 : (![0, 0] : Fin 2 → Nat) = fun _ => 0 := funext fun a => by fin_cases a <;> rfl

/-- The block index maps over the grid: the row operand and the result move one block of rows per point, the weights
    and the bias stay at block (0, 0). -/
theorem block_indices2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The row operand's block at point `t`, entry (p, k), is entry `(5000 t + p, k)` of its array. -/
theorem rows_block2 (c : Dev nD) (t : Fin cfg2.N) (p : Fin 5000) (k : Fin 256) (r : Fin 50000) (hr : r.val = 5000 * t.val + p.val) :
    (iblk2 V c 0 t : S5000x256.Idx → Elt Ideal .f32) (ix2 p k) = (V c main_v50 : S50000x256.Idx → Elt Ideal .f32) (ix2 r k) := by
  obtain ⟨e0, e1, -⟩ := block_indices2 t
  unfold iblk2
  rw [View.read_apply]
  show (V c main_v50 : S50000x256.Idx → Elt Ideal .f32) _ = _
  refine congrArg _ (funext fun a => Fin.ext ?_)
  match a with
  | ⟨0, _⟩ => show win2_0.index t (0 : Fin 2) * 5000 + 1 * p.val = r.val; rw [e0, hr]; omega
  | ⟨1, _⟩ => show win2_0.index t (1 : Fin 2) * 256 + 1 * k.val = k.val; rw [e1]; omega

/-- The weights' block at every point is the whole matrix. -/
theorem weights_block2 (c : Dev nD) (t : Fin cfg2.N) (k q : Fin 256) :
    (iblk2 V c 1 t : S256x256.Idx → Elt Ideal .f32) (ix2 k q) = (V c main_arg6 : S256x256.Idx → Elt Ideal .f32) (ix2 k q) := by
  obtain ⟨-, -, e0, e1, -⟩ := block_indices2 t
  unfold iblk2
  rw [View.read_apply]
  show (V c main_arg6 : S256x256.Idx → Elt Ideal .f32) _ = _
  refine congrArg _ (funext fun a => Fin.ext ?_)
  match a with
  | ⟨0, _⟩ => show win2_1.index t (0 : Fin 2) * 256 + 1 * k.val = k.val; rw [e0]; omega
  | ⟨1, _⟩ => show win2_1.index t (1 : Fin 2) * 256 + 1 * q.val = q.val; rw [e1]; omega

/-- The bias row's block at every point is the whole row. -/
theorem bias_block2 (c : Dev nD) (t : Fin cfg2.N) (q : Fin 256) :
    (iblk2 V c 2 t : S1x256.Idx → Elt Ideal .f32) (ix2 (0 : Fin 1) q) = (V c main_v52 : S1x256.Idx → Elt Ideal .f32) (ix2 (0 : Fin 1) q) := by
  obtain ⟨-, -, -, -, e0, e1, -⟩ := block_indices2 t
  unfold iblk2
  rw [View.read_apply]
  show (V c main_v52 : S1x256.Idx → Elt Ideal .f32) _ = _
  refine congrArg _ (funext fun a => Fin.ext ?_)
  match a with
  | ⟨0, _⟩ => show win2_2.index t (0 : Fin 2) * 1 + 1 * (0 : Fin 1).val = (0 : Fin 1).val; rw [e0]; rfl
  | ⟨1, _⟩ => show win2_2.index t (1 : Fin 2) * 256 + 1 * q.val = q.val; rw [e1]; omega

/-- What point `t` writes back is block `t` of the affine layer of the arrays as the region finds them. -/
theorem written_block2 (c : Dev nD) (t : Fin cfg2.N) :
    (dat2 V c).flushed 3 t = ((cfg2.win 3).blk t).view.read (Elt Ideal) (linRow (reluArr (V c main_v50 : S50000x256.Idx → Elt Ideal .f32)) (V c main_arg6 : S256x256.Idx → Elt Ideal .f32) (V c main_v52 : S1x256.Idx → Elt Ideal .f32)) := by
  show (cfg2.win 3).cut (grid2.coords t) ((dat2 V c).after 3 t) = _
  rw [after2_3]
  unfold out2_3
  rw [View.canon_unit_zero zero_offsets2]
  simp only [View.ld_unit_zero (S := S5000x256) zero_offsets2, View.ld_unit_zero (S := S256x256) zero_offsets2, View.ld_unit_zero (S := S1x256) zero_offsets2]
  have ht : t.val < 10 := lt_of_lt_of_eq t.isLt (show cfg2.N = 10 from N_2)
  obtain ⟨-, -, -, -, -, -, e0, e1⟩ := block_indices2 t
  funext y
  obtain ⟨p, q, rfl⟩ : ∃ (p : Fin 5000) (q : Fin 256), (y : S5000x256.Idx) = ix2 p q := ⟨y 0, y 1, eq_ix2 y⟩
  have hp : p.val < 5000 := p.isLt
  let r : Fin 50000 := ⟨5000 * t.val + p.val, by omega⟩
  have hemb : ((cfg2.win 3).blk t).view.emb (ix2 p q) = (ix2 r q : S50000x256.Idx) := by
    refine funext fun a => Fin.ext ?_
    match a with
    | ⟨0, _⟩ => show win2_3.index t (0 : Fin 2) * 5000 + 1 * p.val = 5000 * t.val + p.val; rw [e0]; omega
    | ⟨1, _⟩ => show win2_3.index t (1 : Fin 2) * 256 + 1 * q.val = q.val; rw [e1]; omega
  show k2_pay1 (iblk2 V c 0 t) (iblk2 V c 1 t) (iblk2 V c 2 t) (ix2 p q) = linRow (reluArr (V c main_v50 : S50000x256.Idx → Elt Ideal .f32)) (V c main_arg6 : S256x256.Idx → Elt Ideal .f32) (V c main_v52 : S1x256.Idx → Elt Ideal .f32) (((cfg2.win 3).blk t).view.emb (ix2 p q))
  rw [hemb]
  refine (pay2_at (iblk2 V c 0 t) (iblk2 V c 1 t) (iblk2 V c 2 t) p q).trans ?_
  rw [linRow_apply]
  refine congrArg₂ (· + ·) (Finset.sum_congr rfl fun k _ => congrArg₂ (· * ·) ?_ (weights_block2 V c t k q)) (bias_block2 V c t q)
  rw [reluArr_apply, rows_block2 V c t p k r rfl]

/-- Every entry of the result array lies in some point's block: row `r` in the block of point `r / 5000`. -/
theorem rows_covered2 (i : S50000x256.Idx) :
    ∃ t : Fin cfg2.N, (cfg2.win 3).flush t = true ∧ i ∈ ((cfg2.win 3).blk t).view.set := by
  have hi0 : (i 0).val < 50000 := (i 0).isLt
  have hi1 : (i 1).val < 256 := (i 1).isLt
  let t : Fin cfg2.N := ⟨(i 0).val / 5000, by rw [show cfg2.N = 10 from N_2]; omega⟩
  obtain ⟨-, -, -, -, -, -, e0, e1⟩ := block_indices2 t
  refine ⟨t, flush2_3 t, ?_⟩
  show i ∈ ((View.whole main_v53).slice (win2_3.rect t)).set
  rw [View.set_slice_whole, Rect.mem_set_unit]
  intro a
  have htv : t.val = (i 0).val / 5000 := rfl
  match a with
  | ⟨0, _⟩ => show win2_3.index t (0 : Fin 2) * 5000 ≤ (i 0).val ∧ (i 0).val < win2_3.index t (0 : Fin 2) * 5000 + 5000; rw [e0, htv]; omega
  | ⟨1, _⟩ => show win2_3.index t (1 : Fin 2) * 256 ≤ (i 1).val ∧ (i 1).val < win2_3.index t (1 : Fin 2) * 256 + 256; rw [e1]; omega

/-- The result array after the region: the affine layer of the arrays the region was entered with. -/
theorem region2_result (c : Dev nD) :
    (dat2 V c).arrAt 3 cfg2.N = linRow (reluArr (V c main_v50 : S50000x256.Idx → Elt Ideal .f32)) (V c main_arg6 : S256x256.Idx → Elt Ideal .f32) (V c main_v52 : S1x256.Idx → Elt Ideal .f32) :=
  (dat2 V c).arrAt_eq_of_cover 3 (linRow (reluArr (V c main_v50 : S50000x256.Idx → Elt Ideal .f32)) (V c main_arg6 : S256x256.Idx → Elt Ideal .f32) (V c main_v52 : S1x256.Idx → Elt Ideal .f32)) (fun t _ => written_block2 V c t) (rows_covered2)

end Cert.KernelIdeal.Hand

end
-- ==== Proof.Region3.lean ====
/-
  The fourth kernel region read as one function of whole arrays. The region walks ten blocks of 5000 rows; at block `t`
  its body reads rows `5000 t … 5000 t + 4999` of the row operand, the whole weight matrix and the whole one-row bias, and
  writes the same rows of the result. Entry (p, q) of what it writes is `∑ k, x (5000 t + p, k) · w (k, q) + b (0, q)` with
  `x` clamped below at zero, which is entry `(5000 t + p, q)` of the affine layer of the whole arrays; the ten blocks cover every row, so
  the result array ends at the affine layer of the arrays the region was entered with.
-/
import proofs.«138221_j32031866093969_1_alg».proof.Proof.Gen.KernelIdeal.Frame
import proofs.«138221_j32031866093969_1_alg».proof.Proof.Pay
import proofs.«138221_j32031866093969_1_alg».proof.Proof.Spec
import Idealize.ShloMosaic.Lib.Pipeline.Value

set_option maxRecDepth 16384

noncomputable section

open scoped BigOperators

namespace Cert.KernelIdeal.Hand

open Cert.KernelIdeal Cert.KernelIdeal.Gen Cert.Proof.Lin
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_offsets3 : (![0, 0] : Fin 2 → Nat) = fun _ => 0 := funext fun a => by fin_cases a <;> rfl

/-- The block index maps over the grid: the row operand and the result move one block of rows per point, the weights
    and the bias stay at block (0, 0). -/
theorem block_indices3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- The row operand's block at point `t`, entry (p, k), is entry `(5000 t + p, k)` of its array. -/
theorem rows_block3 (c : Dev nD) (t : Fin cfg3.N) (p : Fin 5000) (k : Fin 256) (r : Fin 50000) (hr : r.val = 5000 * t.val + p.val) :
    (iblk3 V c 0 t : S5000x256.Idx → Elt Ideal .f32) (ix2 p k) = (V c main_v92 : S50000x256.Idx → Elt Ideal .f32) (ix2 r k) := by
  obtain ⟨e0, e1, -⟩ := block_indices3 t
  unfold iblk3
  rw [View.read_apply]
  show (V c main_v92 : S50000x256.Idx → Elt Ideal .f32) _ = _
  refine congrArg _ (funext fun a => Fin.ext ?_)
  match a with
  | ⟨0, _⟩ => show win3_0.index t (0 : Fin 2) * 5000 + 1 * p.val = r.val; rw [e0, hr]; omega
  | ⟨1, _⟩ => show win3_0.index t (1 : Fin 2) * 256 + 1 * k.val = k.val; rw [e1]; omega

/-- The weights' block at every point is the whole matrix. -/
theorem weights_block3 (c : Dev nD) (t : Fin cfg3.N) (k q : Fin 256) :
    (iblk3 V c 1 t : S256x256.Idx → Elt Ideal .f32) (ix2 k q) = (V c main_arg8 : S256x256.Idx → Elt Ideal .f32) (ix2 k q) := by
  obtain ⟨-, -, e0, e1, -⟩ := block_indices3 t
  unfold iblk3
  rw [View.read_apply]
  show (V c main_arg8 : S256x256.Idx → Elt Ideal .f32) _ = _
  refine congrArg _ (funext fun a => Fin.ext ?_)
  match a with
  | ⟨0, _⟩ => show win3_1.index t (0 : Fin 2) * 256 + 1 * k.val = k.val; rw [e0]; omega
  | ⟨1, _⟩ => show win3_1.index t (1 : Fin 2) * 256 + 1 * q.val = q.val; rw [e1]; omega

/-- The bias row's block at every point is the whole row. -/
theorem bias_block3 (c : Dev nD) (t : Fin cfg3.N) (q : Fin 256) :
    (iblk3 V c 2 t : S1x256.Idx → Elt Ideal .f32) (ix2 (0 : Fin 1) q) = (V c main_v93 : S1x256.Idx → Elt Ideal .f32) (ix2 (0 : Fin 1) q) := by
  obtain ⟨-, -, -, -, e0, e1, -⟩ := block_indices3 t
  unfold iblk3
  rw [View.read_apply]
  show (V c main_v93 : S1x256.Idx → Elt Ideal .f32) _ = _
  refine congrArg _ (funext fun a => Fin.ext ?_)
  match a with
  | ⟨0, _⟩ => show win3_2.index t (0 : Fin 2) * 1 + 1 * (0 : Fin 1).val = (0 : Fin 1).val; rw [e0]; rfl
  | ⟨1, _⟩ => show win3_2.index t (1 : Fin 2) * 256 + 1 * q.val = q.val; rw [e1]; omega

/-- What point `t` writes back is block `t` of the affine layer of the arrays as the region finds them. -/
theorem written_block3 (c : Dev nD) (t : Fin cfg3.N) :
    (dat3 V c).flushed 3 t = ((cfg3.win 3).blk t).view.read (Elt Ideal) (linRow (reluArr (V c main_v92 : S50000x256.Idx → Elt Ideal .f32)) (V c main_arg8 : S256x256.Idx → Elt Ideal .f32) (V c main_v93 : S1x256.Idx → Elt Ideal .f32)) := by
  show (cfg3.win 3).cut (grid3.coords t) ((dat3 V c).after 3 t) = _
  rw [after3_3]
  unfold out3_3
  rw [View.canon_unit_zero zero_offsets3]
  simp only [View.ld_unit_zero (S := S5000x256) zero_offsets3, View.ld_unit_zero (S := S256x256) zero_offsets3, View.ld_unit_zero (S := S1x256) zero_offsets3]
  have ht : t.val < 10 := lt_of_lt_of_eq t.isLt (show cfg3.N = 10 from N_3)
  obtain ⟨-, -, -, -, -, -, e0, e1⟩ := block_indices3 t
  funext y
  obtain ⟨p, q, rfl⟩ : ∃ (p : Fin 5000) (q : Fin 256), (y : S5000x256.Idx) = ix2 p q := ⟨y 0, y 1, eq_ix2 y⟩
  have hp : p.val < 5000 := p.isLt
  let r : Fin 50000 := ⟨5000 * t.val + p.val, by omega⟩
  have hemb : ((cfg3.win 3).blk t).view.emb (ix2 p q) = (ix2 r q : S50000x256.Idx) := by
    refine funext fun a => Fin.ext ?_
    match a with
    | ⟨0, _⟩ => show win3_3.index t (0 : Fin 2) * 5000 + 1 * p.val = 5000 * t.val + p.val; rw [e0]; omega
    | ⟨1, _⟩ => show win3_3.index t (1 : Fin 2) * 256 + 1 * q.val = q.val; rw [e1]; omega
  show k3_pay1 (iblk3 V c 0 t) (iblk3 V c 1 t) (iblk3 V c 2 t) (ix2 p q) = linRow (reluArr (V c main_v92 : S50000x256.Idx → Elt Ideal .f32)) (V c main_arg8 : S256x256.Idx → Elt Ideal .f32) (V c main_v93 : S1x256.Idx → Elt Ideal .f32) (((cfg3.win 3).blk t).view.emb (ix2 p q))
  rw [hemb]
  refine (pay3_at (iblk3 V c 0 t) (iblk3 V c 1 t) (iblk3 V c 2 t) p q).trans ?_
  rw [linRow_apply]
  refine congrArg₂ (· + ·) (Finset.sum_congr rfl fun k _ => congrArg₂ (· * ·) ?_ (weights_block3 V c t k q)) (bias_block3 V c t q)
  rw [reluArr_apply, rows_block3 V c t p k r rfl]

/-- Every entry of the result array lies in some point's block: row `r` in the block of point `r / 5000`. -/
theorem rows_covered3 (i : S50000x256.Idx) :
    ∃ t : Fin cfg3.N, (cfg3.win 3).flush t = true ∧ i ∈ ((cfg3.win 3).blk t).view.set := by
  have hi0 : (i 0).val < 50000 := (i 0).isLt
  have hi1 : (i 1).val < 256 := (i 1).isLt
  let t : Fin cfg3.N := ⟨(i 0).val / 5000, by rw [show cfg3.N = 10 from N_3]; omega⟩
  obtain ⟨-, -, -, -, -, -, e0, e1⟩ := block_indices3 t
  refine ⟨t, flush3_3 t, ?_⟩
  show i ∈ ((View.whole main_v94).slice (win3_3.rect t)).set
  rw [View.set_slice_whole, Rect.mem_set_unit]
  intro a
  have htv : t.val = (i 0).val / 5000 := rfl
  match a with
  | ⟨0, _⟩ => show win3_3.index t (0 : Fin 2) * 5000 ≤ (i 0).val ∧ (i 0).val < win3_3.index t (0 : Fin 2) * 5000 + 5000; rw [e0, htv]; omega
  | ⟨1, _⟩ => show win3_3.index t (1 : Fin 2) * 256 ≤ (i 1).val ∧ (i 1).val < win3_3.index t (1 : Fin 2) * 256 + 256; rw [e1]; omega

/-- The result array after the region: the affine layer of the arrays the region was entered with. -/
theorem region3_result (c : Dev nD) :
    (dat3 V c).arrAt 3 cfg3.N = linRow (reluArr (V c main_v92 : S50000x256.Idx → Elt Ideal .f32)) (V c main_arg8 : S256x256.Idx → Elt Ideal .f32) (V c main_v93 : S1x256.Idx → Elt Ideal .f32) :=
  (dat3 V c).arrAt_eq_of_cover 3 (linRow (reluArr (V c main_v92 : S50000x256.Idx → Elt Ideal .f32)) (V c main_arg8 : S256x256.Idx → Elt Ideal .f32) (V c main_v93 : S1x256.Idx → Elt Ideal .f32)) (fun t _ => written_block3 V c t) (rows_covered3)

end Cert.KernelIdeal.Hand

end
-- ==== Proof.KValue.lean ====
/-
  The idealized kernel's result as a composition of named stages. The buffer contents at the boundaries between the
  program's segments are followed from the launch memory to the result: each host stretch writes what `HostK` reads
  back and keeps every array it does not write, each region writes the affine layer of the arrays it is entered with
  (`Region0` … `Region3`) and keeps every array that is not its result. Composed: an affine layer of the node
  features, two rounds of "matrix product, then aggregation over the edges" — the second round, and the last affine
  layer, on features clamped below at zero.
-/
import proofs.«138221_j32031866093969_1_alg».proof.Proof.Gen.KernelIdeal.Frame
import proofs.«138221_j32031866093969_1_alg».proof.Proof.HostK
import proofs.«138221_j32031866093969_1_alg».proof.Proof.KNet
import proofs.«138221_j32031866093969_1_alg».proof.Proof.Region0
import proofs.«138221_j32031866093969_1_alg».proof.Proof.Region1
import proofs.«138221_j32031866093969_1_alg».proof.Proof.Region2
import proofs.«138221_j32031866093969_1_alg».proof.Proof.Region3

set_option maxRecDepth 16384

noncomputable section

namespace Cert.KernelIdeal.Hand

open Cert.KernelIdeal Cert.KernelIdeal.Gen Cert.Proof.Lin
open Idealize.ShloMosaic Idealize.ShloMosaic.TcCoe Idealize.SL.Sem Idealize.ShloMosaic.StableHlo

variable (m : (ℓ : Loc nD τ sig) → Buf (Elt Ideal) ℓ) (ρ : Dev nD → PrngReg)

/-- A stretch of host operations keeps a buffer none of them writes. -/
macro "host_keeps" : tactic => `(tactic| (
  refine StableHlo.after_of_forall_not_mem _ _ (List.forall_iff_forall_mem.mp ?_)
  simp only [hostOps0, hostOps1, hostOps2, hostOps2_1, hostOps2_2, hostOps3, hostOps3_1, hostOps3_2, List.Forall,
    StableHlo.nullary_writes, StableHlo.unary_writes, StableHlo.binary_writes, StableHlo.ternary_writes, StableHlo.reshape_writes, Finset.mem_singleton]
  repeat' apply And.intro
  all_goals exact StableHlo.devRef_ne_of_ne (by decide)))

/-! ## Region 0's entry -/
theorem at1_arg0 (c : Dev nD) : W1 m ρ c (Proc.devRef .tc main_arg0) = (m ((c : Thread nD τ).loc main_arg0)) := by
  show after hostOps0 (W0 m ρ c) (Proc.devRef .tc main_arg0) = _
  refine Eq.trans (by host_keeps) ?_
  rfl
theorem at1_arg2 (c : Dev nD) : W1 m ρ c (Proc.devRef .tc main_arg2) = (m ((c : Thread nD τ).loc main_arg2)) := by
  show after hostOps0 (W0 m ρ c) (Proc.devRef .tc main_arg2) = _
  refine Eq.trans (by host_keeps) ?_
  rfl
theorem at1_arg4 (c : Dev nD) : W1 m ρ c (Proc.devRef .tc main_arg4) = (m ((c : Thread nD τ).loc main_arg4)) := by
  show after hostOps0 (W0 m ρ c) (Proc.devRef .tc main_arg4) = _
  refine Eq.trans (by host_keeps) ?_
  rfl
theorem at1_arg5 (c : Dev nD) : W1 m ρ c (Proc.devRef .tc main_arg5) = (m ((c : Thread nD τ).loc main_arg5)) := by
  show after hostOps0 (W0 m ρ c) (Proc.devRef .tc main_arg5) = _
  refine Eq.trans (by host_keeps) ?_
  rfl
theorem at1_arg6 (c : Dev nD) : W1 m ρ c (Proc.devRef .tc main_arg6) = (m ((c : Thread nD τ).loc main_arg6)) := by
  show after hostOps0 (W0 m ρ c) (Proc.devRef .tc main_arg6) = _
  refine Eq.trans (by host_keeps) ?_
  rfl
theorem at1_arg7 (c : Dev nD) : W1 m ρ c (Proc.devRef .tc main_arg7) = (m ((c : Thread nD τ).loc main_arg7)) := by
  show after hostOps0 (W0 m ρ c) (Proc.devRef .tc main_arg7) = _
  refine Eq.trans (by host_keeps) ?_
  rfl
theorem at1_arg8 (c : Dev nD) : W1 m ρ c (Proc.devRef .tc main_arg8) = (m ((c : Thread nD τ).loc main_arg8)) := by
  show after hostOps0 (W0 m ρ c) (Proc.devRef .tc main_arg8) = _
  refine Eq.trans (by host_keeps) ?_
  rfl
theorem at1_arg9 (c : Dev nD) : W1 m ρ c (Proc.devRef .tc main_arg9) = (m ((c : Thread nD τ).loc main_arg9)) := by
  show after hostOps0 (W0 m ρ c) (Proc.devRef .tc main_arg9) = _
  refine Eq.trans (by host_keeps) ?_
  rfl
theorem at1_src (c : Dev nD) : W1 m ρ c (Proc.devRef .tc main_v3) = srcOf (m ((c : Thread nD τ).loc main_arg1)) := pre0_src (W0 m ρ c)
theorem at1_dst (c : Dev nD) : W1 m ρ c (Proc.devRef .tc main_v6) = dstOf (m ((c : Thread nD τ).loc main_arg1)) := pre0_dst (W0 m ρ c)
theorem at1_bias (c : Dev nD) : W1 m ρ c (Proc.devRef .tc main_v7) = rowOf (m ((c : Thread nD τ).loc main_arg3)) := pre0_bias (W0 m ρ c)

/-! ## Region 0's exit -/

theorem at2_h (c : Dev nD) : W2 m ρ c (Proc.devRef .tc main_v8) = linRow (m ((c : Thread nD τ).loc main_arg0)) (m ((c : Thread nD τ).loc main_arg2)) (rowOf (m ((c : Thread nD τ).loc main_arg3))) := by
  refine ((W2_arr m ρ c 3).trans (region0_result (V1 m ρ) c)).trans ?_
  show linRow (W1 m ρ c (Proc.devRef .tc main_arg0)) (W1 m ρ c (Proc.devRef .tc main_arg2)) (W1 m ρ c (Proc.devRef .tc main_v7)) = _
  rw [at1_arg0, at1_arg2, at1_bias]
theorem at2_arg4 (c : Dev nD) : W2 m ρ c (Proc.devRef .tc main_arg4) = (m ((c : Thread nD τ).loc main_arg4)) := (W2_of_ne m ρ c main_arg4 (by decide)).trans (at1_arg4 m ρ c)
theorem at2_arg5 (c : Dev nD) : W2 m ρ c (Proc.devRef .tc main_arg5) = (m ((c : Thread nD τ).loc main_arg5)) := (W2_of_ne m ρ c main_arg5 (by decide)).trans (at1_arg5 m ρ c)
theorem at2_arg6 (c : Dev nD) : W2 m ρ c (Proc.devRef .tc main_arg6) = (m ((c : Thread nD τ).loc main_arg6)) := (W2_of_ne m ρ c main_arg6 (by decide)).trans (at1_arg6 m ρ c)
theorem at2_arg7 (c : Dev nD) : W2 m ρ c (Proc.devRef .tc main_arg7) = (m ((c : Thread nD τ).loc main_arg7)) := (W2_of_ne m ρ c main_arg7 (by decide)).trans (at1_arg7 m ρ c)
theorem at2_arg8 (c : Dev nD) : W2 m ρ c (Proc.devRef .tc main_arg8) = (m ((c : Thread nD τ).loc main_arg8)) := (W2_of_ne m ρ c main_arg8 (by decide)).trans (at1_arg8 m ρ c)
theorem at2_arg9 (c : Dev nD) : W2 m ρ c (Proc.devRef .tc main_arg9) = (m ((c : Thread nD τ).loc main_arg9)) := (W2_of_ne m ρ c main_arg9 (by decide)).trans (at1_arg9 m ρ c)
theorem at2_src (c : Dev nD) : W2 m ρ c (Proc.devRef .tc main_v3) = srcOf (m ((c : Thread nD τ).loc main_arg1)) := (W2_of_ne m ρ c main_v3 (by decide)).trans (at1_src m ρ c)
theorem at2_dst (c : Dev nD) : W2 m ρ c (Proc.devRef .tc main_v6) = dstOf (m ((c : Thread nD τ).loc main_arg1)) := (W2_of_ne m ρ c main_v6 (by decide)).trans (at1_dst m ρ c)

/-! ## Region 1's entry -/

theorem at3_h (c : Dev nD) : W3 m ρ c (Proc.devRef .tc main_v8) = linRow (m ((c : Thread nD τ).loc main_arg0)) (m ((c : Thread nD τ).loc main_arg2)) (rowOf (m ((c : Thread nD τ).loc main_arg3))) := by
  show after hostOps1 (W2 m ρ c) (Proc.devRef .tc main_v8) = _
  exact Eq.trans (by host_keeps) (at2_h m ρ c)
theorem at3_bias (c : Dev nD) : W3 m ρ c (Proc.devRef .tc main_v10) = zeroRow (F := Ideal) := pre1_bias (W2 m ρ c)
theorem at3_arg4 (c : Dev nD) : W3 m ρ c (Proc.devRef .tc main_arg4) = (m ((c : Thread nD τ).loc main_arg4)) := by
  show after hostOps1 (W2 m ρ c) (Proc.devRef .tc main_arg4) = _
  exact Eq.trans (by host_keeps) (at2_arg4 m ρ c)
theorem at3_arg5 (c : Dev nD) : W3 m ρ c (Proc.devRef .tc main_arg5) = (m ((c : Thread nD τ).loc main_arg5)) := by
  show after hostOps1 (W2 m ρ c) (Proc.devRef .tc main_arg5) = _
  exact Eq.trans (by host_keeps) (at2_arg5 m ρ c)
theorem at3_arg6 (c : Dev nD) : W3 m ρ c (Proc.devRef .tc main_arg6) = (m ((c : Thread nD τ).loc main_arg6)) := by
  show after hostOps1 (W2 m ρ c) (Proc.devRef .tc main_arg6) = _
  exact Eq.trans (by host_keeps) (at2_arg6 m ρ c)
theorem at3_arg7 (c : Dev nD) : W3 m ρ c (Proc.devRef .tc main_arg7) = (m ((c : Thread nD τ).loc main_arg7)) := by
  show after hostOps1 (W2 m ρ c) (Proc.devRef .tc main_arg7) = _
  exact Eq.trans (by host_keeps) (at2_arg7 m ρ c)
theorem at3_arg8 (c : Dev nD) : W3 m ρ c (Proc.devRef .tc main_arg8) = (m ((c : Thread nD τ).loc main_arg8)) := by
  show after hostOps1 (W2 m ρ c) (Proc.devRef .tc main_arg8) = _
  exact Eq.trans (by host_keeps) (at2_arg8 m ρ c)
theorem at3_arg9 (c : Dev nD) : W3 m ρ c (Proc.devRef .tc main_arg9) = (m ((c : Thread nD τ).loc main_arg9)) := by
  show after hostOps1 (W2 m ρ c) (Proc.devRef .tc main_arg9) = _
  exact Eq.trans (by host_keeps) (at2_arg9 m ρ c)
theorem at3_src (c : Dev nD) : W3 m ρ c (Proc.devRef .tc main_v3) = srcOf (m ((c : Thread nD τ).loc main_arg1)) := by
  show after hostOps1 (W2 m ρ c) (Proc.devRef .tc main_v3) = _
  exact Eq.trans (by host_keeps) (at2_src m ρ c)
theorem at3_dst (c : Dev nD) : W3 m ρ c (Proc.devRef .tc main_v6) = dstOf (m ((c : Thread nD τ).loc main_arg1)) := by
  show after hostOps1 (W2 m ρ c) (Proc.devRef .tc main_v6) = _
  exact Eq.trans (by host_keeps) (at2_dst m ρ c)

/-! ## Region 1's exit -/

/-- The first convolution's features times its weights. -/
abbrev z1 (c : Dev nD) := linRow (linRow (m ((c : Thread nD τ).loc main_arg0)) (m ((c : Thread nD τ).loc main_arg2)) (rowOf (m ((c : Thread nD τ).loc main_arg3)))) (m ((c : Thread nD τ).loc main_arg4)) (zeroRow (F := Ideal))

theorem at4_z (c : Dev nD) : W4 m ρ c (Proc.devRef .tc main_v11) = z1 m c := by
  refine ((W4_arr m ρ c 3).trans (region1_result (V3 m ρ) c)).trans ?_
  show linRow (W3 m ρ c (Proc.devRef .tc main_v8)) (W3 m ρ c (Proc.devRef .tc main_arg4)) (W3 m ρ c (Proc.devRef .tc main_v10)) = _
  rw [at3_h, at3_arg4, at3_bias]
theorem at4_arg5 (c : Dev nD) : W4 m ρ c (Proc.devRef .tc main_arg5) = (m ((c : Thread nD τ).loc main_arg5)) := (W4_of_ne m ρ c main_arg5 (by decide)).trans (at3_arg5 m ρ c)
theorem at4_arg6 (c : Dev nD) : W4 m ρ c (Proc.devRef .tc main_arg6) = (m ((c : Thread nD τ).loc main_arg6)) := (W4_of_ne m ρ c main_arg6 (by decide)).trans (at3_arg6 m ρ c)
theorem at4_arg7 (c : Dev nD) : W4 m ρ c (Proc.devRef .tc main_arg7) = (m ((c : Thread nD τ).loc main_arg7)) := (W4_of_ne m ρ c main_arg7 (by decide)).trans (at3_arg7 m ρ c)
theorem at4_arg8 (c : Dev nD) : W4 m ρ c (Proc.devRef .tc main_arg8) = (m ((c : Thread nD τ).loc main_arg8)) := (W4_of_ne m ρ c main_arg8 (by decide)).trans (at3_arg8 m ρ c)
theorem at4_arg9 (c : Dev nD) : W4 m ρ c (Proc.devRef .tc main_arg9) = (m ((c : Thread nD τ).loc main_arg9)) := (W4_of_ne m ρ c main_arg9 (by decide)).trans (at3_arg9 m ρ c)
theorem at4_src (c : Dev nD) : W4 m ρ c (Proc.devRef .tc main_v3) = srcOf (m ((c : Thread nD τ).loc main_arg1)) := (W4_of_ne m ρ c main_v3 (by decide)).trans (at3_src m ρ c)
theorem at4_dst (c : Dev nD) : W4 m ρ c (Proc.devRef .tc main_v6) = dstOf (m ((c : Thread nD τ).loc main_arg1)) := (W4_of_ne m ρ c main_v6 (by decide)).trans (at3_dst m ρ c)

/-! ## Region 2's entry -/

/-- The first convolution's result. -/
abbrev g1 (c : Dev nD) := agg (z1 m c) (srcOf (m ((c : Thread nD τ).loc main_arg1))) (dstOf (m ((c : Thread nD τ).loc main_arg1))) (m ((c : Thread nD τ).loc main_arg5))

theorem at7_g (c : Dev nD) : W7 m ρ c (Proc.devRef .tc main_v50) = g1 m c := by
  refine (pre2_agg (W4 m ρ c)).trans ?_
  rw [at4_z, at4_src, at4_dst, at4_arg5]
theorem at7_bias (c : Dev nD) : W7 m ρ c (Proc.devRef .tc main_v52) = zeroRow (F := Ideal) := pre2_bias (W4 m ρ c)
theorem at7_arg6 (c : Dev nD) : W7 m ρ c (Proc.devRef .tc main_arg6) = (m ((c : Thread nD τ).loc main_arg6)) := by
  show after hostOps2_2 (after hostOps2_1 (after hostOps2 (W4 m ρ c))) (Proc.devRef .tc main_arg6) = _
  refine Eq.trans (by host_keeps) (Eq.trans (by host_keeps) (Eq.trans (by host_keeps) ?_))
  exact at4_arg6 m ρ c
theorem at7_arg7 (c : Dev nD) : W7 m ρ c (Proc.devRef .tc main_arg7) = (m ((c : Thread nD τ).loc main_arg7)) := by
  show after hostOps2_2 (after hostOps2_1 (after hostOps2 (W4 m ρ c))) (Proc.devRef .tc main_arg7) = _
  refine Eq.trans (by host_keeps) (Eq.trans (by host_keeps) (Eq.trans (by host_keeps) ?_))
  exact at4_arg7 m ρ c
theorem at7_arg8 (c : Dev nD) : W7 m ρ c (Proc.devRef .tc main_arg8) = (m ((c : Thread nD τ).loc main_arg8)) := by
  show after hostOps2_2 (after hostOps2_1 (after hostOps2 (W4 m ρ c))) (Proc.devRef .tc main_arg8) = _
  refine Eq.trans (by host_keeps) (Eq.trans (by host_keeps) (Eq.trans (by host_keeps) ?_))
  exact at4_arg8 m ρ c
theorem at7_arg9 (c : Dev nD) : W7 m ρ c (Proc.devRef .tc main_arg9) = (m ((c : Thread nD τ).loc main_arg9)) := by
  show after hostOps2_2 (after hostOps2_1 (after hostOps2 (W4 m ρ c))) (Proc.devRef .tc main_arg9) = _
  refine Eq.trans (by host_keeps) (Eq.trans (by host_keeps) (Eq.trans (by host_keeps) ?_))
  exact at4_arg9 m ρ c
theorem at7_src (c : Dev nD) : W7 m ρ c (Proc.devRef .tc main_v3) = srcOf (m ((c : Thread nD τ).loc main_arg1)) := by
  show after hostOps2_2 (after hostOps2_1 (after hostOps2 (W4 m ρ c))) (Proc.devRef .tc main_v3) = _
  refine Eq.trans (by host_keeps) (Eq.trans (by host_keeps) (Eq.trans (by host_keeps) ?_))
  exact at4_src m ρ c
theorem at7_dst (c : Dev nD) : W7 m ρ c (Proc.devRef .tc main_v6) = dstOf (m ((c : Thread nD τ).loc main_arg1)) := by
  show after hostOps2_2 (after hostOps2_1 (after hostOps2 (W4 m ρ c))) (Proc.devRef .tc main_v6) = _
  refine Eq.trans (by host_keeps) (Eq.trans (by host_keeps) (Eq.trans (by host_keeps) ?_))
  exact at4_dst m ρ c

/-! ## Region 2's exit -/

/-- The second convolution's features times its weights. -/
abbrev z2 (c : Dev nD) := linRow (reluArr (g1 m c)) (m ((c : Thread nD τ).loc main_arg6)) (zeroRow (F := Ideal))

theorem at8_z (c : Dev nD) : W8 m ρ c (Proc.devRef .tc main_v53) = z2 m c := by
  refine ((W8_arr m ρ c 3).trans (region2_result (V7 m ρ) c)).trans ?_
  show linRow (reluArr (W7 m ρ c (Proc.devRef .tc main_v50))) (W7 m ρ c (Proc.devRef .tc main_arg6)) (W7 m ρ c (Proc.devRef .tc main_v52)) = _
  rw [at7_g, at7_arg6, at7_bias]
theorem at8_arg7 (c : Dev nD) : W8 m ρ c (Proc.devRef .tc main_arg7) = (m ((c : Thread nD τ).loc main_arg7)) := (W8_of_ne m ρ c main_arg7 (by decide)).trans (at7_arg7 m ρ c)
theorem at8_arg8 (c : Dev nD) : W8 m ρ c (Proc.devRef .tc main_arg8) = (m ((c : Thread nD τ).loc main_arg8)) := (W8_of_ne m ρ c main_arg8 (by decide)).trans (at7_arg8 m ρ c)
theorem at8_arg9 (c : Dev nD) : W8 m ρ c (Proc.devRef .tc main_arg9) = (m ((c : Thread nD τ).loc main_arg9)) := (W8_of_ne m ρ c main_arg9 (by decide)).trans (at7_arg9 m ρ c)
theorem at8_src (c : Dev nD) : W8 m ρ c (Proc.devRef .tc main_v3) = srcOf (m ((c : Thread nD τ).loc main_arg1)) := (W8_of_ne m ρ c main_v3 (by decide)).trans (at7_src m ρ c)
theorem at8_dst (c : Dev nD) : W8 m ρ c (Proc.devRef .tc main_v6) = dstOf (m ((c : Thread nD τ).loc main_arg1)) := (W8_of_ne m ρ c main_v6 (by decide)).trans (at7_dst m ρ c)

/-! ## Region 3's entry -/

/-- The second convolution's result. -/
abbrev g2 (c : Dev nD) := agg (z2 m c) (srcOf (m ((c : Thread nD τ).loc main_arg1))) (dstOf (m ((c : Thread nD τ).loc main_arg1))) (m ((c : Thread nD τ).loc main_arg7))

theorem at11_g (c : Dev nD) : W11 m ρ c (Proc.devRef .tc main_v92) = g2 m c := by
  refine (pre3_agg (W8 m ρ c)).trans ?_
  rw [at8_z, at8_src, at8_dst, at8_arg7]
theorem at11_bias (c : Dev nD) : W11 m ρ c (Proc.devRef .tc main_v93) = rowOf (m ((c : Thread nD τ).loc main_arg9)) := by
  refine (pre3_bias (W8 m ρ c)).trans ?_
  rw [at8_arg9]
theorem at11_arg8 (c : Dev nD) : W11 m ρ c (Proc.devRef .tc main_arg8) = (m ((c : Thread nD τ).loc main_arg8)) := by
  show after hostOps3_2 (after hostOps3_1 (after hostOps3 (W8 m ρ c))) (Proc.devRef .tc main_arg8) = _
  refine Eq.trans (by host_keeps) (Eq.trans (by host_keeps) (Eq.trans (by host_keeps) ?_))
  exact at8_arg8 m ρ c

/-! ## The result -/

/-- The result array at the last boundary is the composition of the stages. -/
theorem result_value (c : Dev nD) : W12 m ρ c (Proc.devRef .tc main_v94)
    = kernNet (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine ((W12_arr m ρ c 3).trans (region3_result (V11 m ρ) c)).trans ?_
  show linRow (reluArr (W11 m ρ c (Proc.devRef .tc main_v92))) (W11 m ρ c (Proc.devRef .tc main_arg8)) (W11 m ρ c (Proc.devRef .tc main_v93)) = _
  rw [at11_g, at11_arg8, at11_bias]
  rfl

end Cert.KernelIdeal.Hand

end
-- ==== Proof.RefSpec.lean ====
/-
  The reference program's result as a composition of named stages. The program is: an affine layer of the node
  features; two graph convolutions, each a matrix product of the features followed by the aggregation over the edges
  (`agg`) — the second applied to the first's result clamped below at zero —; and an affine layer of the second's
  result clamped below at zero. The run's one long term is this composition, stage for stage.
-/
import proofs.«138221_j32031866093969_1_alg».proof.Proof.RefRun

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The source node of every message: the first row of the edge list, then every node once (the self loops). -/
def srcOf (e : (⟨S2x800000, .i32⟩ : BufTy).Contents (Elt F)) : (⟨S850000, .i32⟩ : BufTy).Contents (Elt F) :=
  concatenate S850000 0 [⟨S800000, (shapeCast _ (extractStridedSlice S1x800000 ![0, 0] e slices_S2x800000_S1x800000_0_0) shapeCasts_S1x800000_S800000)⟩, ⟨S50000, (iotaInDim S50000 32 0)⟩] concatenates_S800000_S50000_S850000_d0

/-- The target node of every message: the second row of the edge list, then every node once. -/
def dstOf (e : (⟨S2x800000, .i32⟩ : BufTy).Contents (Elt F)) : (⟨S850000, .i32⟩ : BufTy).Contents (Elt F) :=
  concatenate S850000 0 [⟨S800000, (shapeCast _ (extractStridedSlice S1x800000 ![1, 0] e slices_S2x800000_S1x800000_1_0) shapeCasts_S1x800000_S800000)⟩, ⟨S50000, (iotaInDim S50000 32 0)⟩] concatenates_S800000_S50000_S850000_d0

/-- A node index as the gathers read it: a negative one counted from the end. -/
def wrapIdx (s : (⟨S850000, .i32⟩ : BufTy).Contents (Elt F)) : (⟨S850000, .i32⟩ : BufTy).Contents (Elt F) :=
  select (cmpi .slt s (broadcastInDim S850000 ![] bcast_S_S850000 (constantI S_ 32 0#32))) (addi s (broadcastInDim S850000 ![] bcast_S_S850000 (constantI S_ 32 50000#32))) s

/-- Every node's in-degree: ones scattered and added at the messages' targets. -/
def degOf (dst : (⟨S850000, .i32⟩ : BufTy).Contents (Elt F)) : (⟨S50000, .f32⟩ : BufTy).Contents (Elt F) :=
  Host.scatterAdd scatter_S50000_S850000x1_S850000_n_0_0_1 (broadcastInDim S50000 ![] bcast_S_S50000 (constant S_ .f32 0x00000000#32)) (broadcastInDim S850000x1 ![0] bcast_S850000_S850000x1_0 dst) (broadcastInDim S850000 ![] bcast_S_S850000 (constant S_ .f32 0x3F800000#32))

/-- The inverse square root of the in-degree where it is positive, zero elsewhere. -/
def dinvOf (dst : (⟨S850000, .i32⟩ : BufTy).Contents (Elt F)) : (⟨S50000, .f32⟩ : BufTy).Contents (Elt F) :=
  select (cmpf .ogt (degOf dst) (broadcastInDim S50000 ![] bcast_S_S50000 (constant S_ .f32 0x00000000#32))) (Host.rsqrt (degOf dst)) (broadcastInDim S50000 ![] bcast_S_S50000 (id (constant (F := F) S_ .f32 0x00000000#32)))

/-- Every message's weight: the two endpoints' inverse square root degrees multiplied. -/
def normOf (src dst : (⟨S850000, .i32⟩ : BufTy).Contents (Elt F)) : (⟨S850000, .f32⟩ : BufTy).Contents (Elt F) :=
  mulf (Host.gather gather_S50000_S850000x1_S850000_n_0_n_n_0_1_1 (dinvOf dst) (broadcastInDim S850000x1 ![0] bcast_S850000_S850000x1_0 (wrapIdx src))) (Host.gather gather_S50000_S850000x1_S850000_n_0_n_n_0_1_1 (dinvOf dst) (broadcastInDim S850000x1 ![0] bcast_S850000_S850000x1_0 (wrapIdx dst)))

/-- The graph convolution's aggregation of node features `z`: every message is its source's row of `z` times the
    message's weight, the messages are added at their targets, and the bias is added to every row. -/
def agg (z : (⟨S50000x256, .f32⟩ : BufTy).Contents (Elt F)) (src dst : (⟨S850000, .i32⟩ : BufTy).Contents (Elt F)) (b : (⟨S256, .f32⟩ : BufTy).Contents (Elt F)) : (⟨S50000x256, .f32⟩ : BufTy).Contents (Elt F) :=
  addf (Host.scatterAdd scatter_S50000x256_S850000x1_S850000x256_1_0_0_1 (broadcastInDim S50000x256 ![] bcast_S_S50000x256 (constant S_ .f32 0x00000000#32)) (broadcastInDim S850000x1 ![0] bcast_S850000_S850000x1_0 dst) (mulf (Host.gather gather_S50000x256_S850000x1_S850000x256_1_0_n_n_0_1_1256 z (broadcastInDim S850000x1 ![0] bcast_S850000_S850000x1_0 (wrapIdx src))) (broadcastInDim S850000x256 ![0, 1] bcast_S850000x1_S850000x256_0_1 (broadcastInDim S850000x1 ![0] bcast_S850000_S850000x1_0 (normOf src dst))))) (broadcastInDim S50000x256 ![0, 1] bcast_S1x256_S50000x256_0_1 (broadcastInDim S1x256 ![1] bcast_S256_S1x256_1 b))

/-- The matrix product of node features with a weight matrix. -/
def mm (a : (⟨S50000x256, .f32⟩ : BufTy).Contents (Elt F)) (w : (⟨S256x256, .f32⟩ : BufTy).Contents (Elt F)) : (⟨S50000x256, .f32⟩ : BufTy).Contents (Elt F) :=
  Host.dotGeneral dot_S50000x256_S256x256_S50000x256_1_0_0_1_n_n none a w

/-- A bias vector added to every row. -/
def addBias (a : (⟨S50000x256, .f32⟩ : BufTy).Contents (Elt F)) (b : (⟨S256, .f32⟩ : BufTy).Contents (Elt F)) : (⟨S50000x256, .f32⟩ : BufTy).Contents (Elt F) :=
  addf a (broadcastInDim S50000x256 ![0, 1] bcast_S1x256_S50000x256_0_1 (broadcastInDim S1x256 ![1] bcast_S256_S1x256_1 b))

/-- Every entry clamped below at zero. -/
def clamp (a : (⟨S50000x256, .f32⟩ : BufTy).Contents (Elt F)) : (⟨S50000x256, .f32⟩ : BufTy).Contents (Elt F) :=
  maximumf a (broadcastInDim S50000x256 ![] bcast_S_S50000x256 (constant S_ .f32 0x00000000#32))

/-- The whole reference, stage by stage. -/
def refNet (x : (⟨S50000x256, .f32⟩ : BufTy).Contents (Elt F)) (e : (⟨S2x800000, .i32⟩ : BufTy).Contents (Elt F))
    (wPre : (⟨S256x256, .f32⟩ : BufTy).Contents (Elt F)) (bPre : (⟨S256, .f32⟩ : BufTy).Contents (Elt F))
    (w1 : (⟨S256x256, .f32⟩ : BufTy).Contents (Elt F)) (b1 : (⟨S256, .f32⟩ : BufTy).Contents (Elt F))
    (w2 : (⟨S256x256, .f32⟩ : BufTy).Contents (Elt F)) (b2 : (⟨S256, .f32⟩ : BufTy).Contents (Elt F))
    (wPost : (⟨S256x256, .f32⟩ : BufTy).Contents (Elt F)) (bPost : (⟨S256, .f32⟩ : BufTy).Contents (Elt F)) : (⟨S50000x256, .f32⟩ : BufTy).Contents (Elt F) :=
  addBias (mm (clamp (agg (mm (clamp (agg (mm (addBias (mm x wPre) bPre) w1) (srcOf e) (dstOf e) b1)) w2) (srcOf e) (dstOf e) b2)) wPost) bPost

set_option maxRecDepth 16384 in
/-- The run's result term is the composition of the stages. -/
theorem res_eq_refNet (m : (ℓ : Loc nD τ sig) → Buf (Elt F) ℓ) (c : Dev nD) :
    Cert.ReferenceIdeal.ValueP.res_main_v96 m c
      = refNet (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  unfold Cert.ReferenceIdeal.ValueP.res_main_v96 refNet addBias mm clamp agg normOf dinvOf degOf wrapIdx srcOf dstOf
  rfl

end Cert.ReferenceIdeal.Hand

end
-- ==== Proof.Bridge.lean ====
/-
  The kernel's stages and the reference's stages are one function. On the extended reals: the affine layer with the
  bias laid as a row is the host's matrix product plus the bias broadcast over the rows (both are
  `∑ k, A (r, k) · W (k, c) + b c` at entry (r, c)); with the zero row it is the bare matrix product, since adding zero
  changes no extended real; the clamp is the host's `maximum` with the zero splat; and the aggregation over the edges is
  the same chain of host operations in both programs. No law used here needs the inputs finite.
-/
import proofs.«138221_j32031866093969_1_alg».proof.Proof.Spec
import proofs.«138221_j32031866093969_1_alg».proof.Proof.HostK
import proofs.«138221_j32031866093969_1_alg».proof.Proof.KNet
import proofs.«138221_j32031866093969_1_alg».proof.Proof.RefSpec

set_option maxRecDepth 16384

noncomputable section

open scoped BigOperators

namespace Cert.Proof.Bridge

open Idealize.ShloMosaic Idealize.ShloMosaic.ValueIdx Cert.Proof.Lin

/-- The host's matrix product at entry (r, c). -/
theorem mm_at (A : FVec Ideal SA .f32) (W : FVec Ideal SW .f32) (r : Fin 50000) (q : Fin 256) :
    Cert.ReferenceIdeal.Hand.mm (F := Ideal) A W (ix2 r q) = ∑ k : Fin 256, A (ix2 r k) * W (ix2 k q) :=
  Cert.Proof.PlainDot.dotGeneral_plain none .single A W (ix2 r q)

/-- The bias broadcast over the rows, at entry (r, c), is the bias at `c`. -/
theorem bias_rows_at (h2 : SR.BroadcastsInDim SA (![0, 1] : Fin SR.rank → Fin SA.rank)) (h1 : SV.BroadcastsInDim SR (![1] : Fin SV.rank → Fin SR.rank))
    (b : FVec Ideal SV .f32) (r : Fin 50000) (q : Fin 256) :
    broadcastInDim SA ![0, 1] h2 (broadcastInDim SR ![1] h1 b) (ix2 r q) = b (ix1 q) := by
  refine (broadcastInDim_apply _ h2 _ (ix2 r q) (ix2 (0 : Fin 1) q) (fun a => match a with
    | ⟨0, _⟩ => by show 0 = if (1 : Nat) = 1 then 0 else r.val; rw [if_pos rfl]
    | ⟨1, _⟩ => by show q.val = if (256 : Nat) = 1 then 0 else q.val; rw [if_neg (by decide)])).trans ?_
  exact broadcastInDim_apply _ h1 b (ix2 (0 : Fin 1) q) (ix1 q) (fun a => match a with
    | ⟨0, _⟩ => by show q.val = if (256 : Nat) = 1 then 0 else q.val; rw [if_neg (by decide)])

/-- The affine layer with the bias laid as a row is the host's product plus the bias over the rows. -/
theorem lin_bias (A : FVec Ideal SA .f32) (W : FVec Ideal SW .f32) (b : FVec Ideal SV .f32) :
    linRow A W (Cert.KernelIdeal.Hand.rowOf (F := Ideal) b)
      = Cert.ReferenceIdeal.Hand.addBias (F := Ideal) (Cert.ReferenceIdeal.Hand.mm (F := Ideal) A W) b := by
  funext i
  obtain ⟨r, q, rfl⟩ : ∃ (r : Fin 50000) (q : Fin 256), i = ix2 r q := ⟨i 0, i 1, eq_ix2 i⟩
  show (∑ k : Fin 256, A (ix2 r k) * W (ix2 k q)) + Cert.KernelIdeal.Hand.rowOf (F := Ideal) b (ix2 (0 : Fin 1) q) = _
  unfold Cert.ReferenceIdeal.Hand.addBias Cert.KernelIdeal.Hand.rowOf
  refine congrArg₂ (· + ·) (mm_at A W r q).symm ?_
  exact (shapeCast_a_1a_apply b _ 0 q).trans (bias_rows_at _ _ b r q).symm

/-- The affine layer with the zero row is the host's bare product. -/
theorem lin_zero (A : FVec Ideal SA .f32) (W : FVec Ideal SW .f32) :
    linRow A W (Cert.KernelIdeal.Hand.zeroRow (F := Ideal)) = Cert.ReferenceIdeal.Hand.mm (F := Ideal) A W := by
  funext i
  obtain ⟨r, q, rfl⟩ : ∃ (r : Fin 50000) (q : Fin 256), i = ix2 r q := ⟨i 0, i 1, eq_ix2 i⟩
  show (∑ k : Fin 256, A (ix2 r k) * W (ix2 k q)) + Cert.KernelIdeal.Hand.zeroRow (F := Ideal) (ix2 (0 : Fin 1) q) = _
  have hz : Cert.KernelIdeal.Hand.zeroRow (F := Ideal) (ix2 (0 : Fin 1) q) = 0 := by
    unfold Cert.KernelIdeal.Hand.zeroRow
    refine (shapeCast_a_1a_apply _ _ 0 q).trans ?_
    show Ideal.ofBits .f32 0x00000000#32 = 0
    exact Ideal.ofBits_zero_f32
  rw [hz, add_zero]
  exact (mm_at A W r q).symm

/-- The clamp is the host's `maximum` with the zero splat. -/
theorem relu_clamp (g : FVec Ideal SA .f32) : reluArr g = Cert.ReferenceIdeal.Hand.clamp (F := Ideal) g :=
  (maximum_zero_eq g _).symm

/-- The two programs lay the edge list out the same way. -/
theorem src_eq (e : (⟨Cert.KernelIdeal.S2x800000, .i32⟩ : BufTy).Contents (Elt Ideal)) :
    Cert.KernelIdeal.Hand.srcOf (F := Ideal) e = Cert.ReferenceIdeal.Hand.srcOf (F := Ideal) e := rfl
theorem dst_eq (e : (⟨Cert.KernelIdeal.S2x800000, .i32⟩ : BufTy).Contents (Elt Ideal)) :
    Cert.KernelIdeal.Hand.dstOf (F := Ideal) e = Cert.ReferenceIdeal.Hand.dstOf (F := Ideal) e := rfl

/-- The two programs aggregate over the edges by the same chain of host operations. -/
theorem agg_eq (z : (⟨Cert.KernelIdeal.S50000x256, .f32⟩ : BufTy).Contents (Elt Ideal))
    (s d : (⟨Cert.KernelIdeal.S850000, .i32⟩ : BufTy).Contents (Elt Ideal)) (b : (⟨Cert.KernelIdeal.S256, .f32⟩ : BufTy).Contents (Elt Ideal)) :
    Cert.KernelIdeal.Hand.agg (F := Ideal) z s d b = Cert.ReferenceIdeal.Hand.agg (F := Ideal) z s d b := rfl

/-- The kernel's composition of stages is the reference's. -/
theorem net_eq (x : (⟨Cert.KernelIdeal.S50000x256, .f32⟩ : BufTy).Contents (Elt Ideal)) (e : (⟨Cert.KernelIdeal.S2x800000, .i32⟩ : BufTy).Contents (Elt Ideal))
    (wPre : (⟨Cert.KernelIdeal.S256x256, .f32⟩ : BufTy).Contents (Elt Ideal)) (bPre : (⟨Cert.KernelIdeal.S256, .f32⟩ : BufTy).Contents (Elt Ideal))
    (w1 : (⟨Cert.KernelIdeal.S256x256, .f32⟩ : BufTy).Contents (Elt Ideal)) (b1 : (⟨Cert.KernelIdeal.S256, .f32⟩ : BufTy).Contents (Elt Ideal))
    (w2 : (⟨Cert.KernelIdeal.S256x256, .f32⟩ : BufTy).Contents (Elt Ideal)) (b2 : (⟨Cert.KernelIdeal.S256, .f32⟩ : BufTy).Contents (Elt Ideal))
    (wPost : (⟨Cert.KernelIdeal.S256x256, .f32⟩ : BufTy).Contents (Elt Ideal)) (bPost : (⟨Cert.KernelIdeal.S256, .f32⟩ : BufTy).Contents (Elt Ideal)) :
    Cert.KernelIdeal.Hand.kernNet x e wPre bPre w1 b1 w2 b2 wPost bPost
      = Cert.ReferenceIdeal.Hand.refNet (F := Ideal) x e wPre bPre w1 b1 w2 b2 wPost bPost := by
  unfold Cert.KernelIdeal.Hand.kernNet Cert.ReferenceIdeal.Hand.refNet
  simp only [lin_bias, lin_zero, relu_clamp, src_eq, dst_eq, agg_eq]

end Cert.Proof.Bridge

end
-- ==== Proof.lean ====
/-
  The certificate: the word-level kernel, its idealization and the idealized reference each run, terminate and leave
  their arguments as launched; the idealization rewrote no operation; and at the extended reals the idealized kernel
  and the idealized reference, run from memories that agree on the arguments, end with the same result array.

  The mathematics of the last claim. The kernel computes a two-layer graph convolution network in four blocked
  matrix-product kernels with host operations between them; the reference computes it on the host alone. Each kernel
  region writes, block of rows by block of rows, the affine layer `∑ k, A (r, k) · W (k, c) + b (0, c)` of the arrays
  it is entered with (the last two after clamping `A` below at zero); the host operations between the regions are, in
  both programs, the same aggregation over the edge list. So both results are one composition of stages, and the
  stages agree: the affine layer is the host's matrix product plus the bias broadcast over the rows, or the bare product
  when the bias is the zero row; the clamp is the host's `maximum` with zero. Nothing here needs the inputs finite.
-/
import proofs.«138221_j32031866093969_1_alg».proof.Defs
import proofs.«138221_j32031866093969_1_alg».proof.Proof.Gen.Kernel
import proofs.«138221_j32031866093969_1_alg».proof.Proof.Gen.Kernel.Frame
import proofs.«138221_j32031866093969_1_alg».proof.Proof.Gen.KernelIdeal
import proofs.«138221_j32031866093969_1_alg».proof.Proof.Gen.KernelIdeal.Frame
import proofs.«138221_j32031866093969_1_alg».proof.Proof.Gen.ReferenceIdeal
import proofs.«138221_j32031866093969_1_alg».proof.Proof.Gen.Pre_finite_inputs
import proofs.«138221_j32031866093969_1_alg».proof.Proof.KRun
import proofs.«138221_j32031866093969_1_alg».proof.Proof.KValue
import proofs.«138221_j32031866093969_1_alg».proof.Proof.RefRun
import proofs.«138221_j32031866093969_1_alg».proof.Proof.RefSpec
import proofs.«138221_j32031866093969_1_alg».proof.Proof.Bridge
import Idealize.ShloMosaic.Adequacy
import Idealize.ShloMosaic.Init

set_option maxRecDepth 16384

noncomputable section

namespace Cert.Proof

open Idealize.ShloMosaic Idealize.SL.Sem

theorem frame_kernel : @Cert.frame_Kernel Cert.Kernel.Gen.facts Cert.Pre_finite_inputs.Gen.facts :=
  fun m ρ _ => Cert.Kernel.Gen.frame m ρ

theorem frame_kernelIdeal : @Cert.frame_KernelIdeal Cert.KernelIdeal.Gen.facts Cert.Pre_finite_inputs.Gen.facts :=
  fun m ρ _ => Cert.KernelIdeal.Gen.frame m ρ

/-- The reference is a straight line of host operations: its run, with the result dropped. -/
theorem frame_reference : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.ValueP.run (F := Ideal) m ρ)

/-- Both programs end at the one composition of stages of the (agreeing) arguments. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.KernelIdeal.Hand.kernNet (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono (fun r h c => ⟨(h c).1.trans (Cert.KernelIdeal.Hand.result_value m ρ c), (h c).2⟩)
      (Cert.KernelIdeal.Hand.run_named (F := Ideal) m ρ)
  · refine (θ_run Cert.ReferenceIdeal.defs _ _).mono (fun r h c => ⟨(h c).1.trans ?_, (h c).2⟩)
      (Cert.ReferenceIdeal.ValueP.run (F := Ideal) m' ρ')
    obtain ⟨h0, h1, h2, h3, h4, h5, h6, h7, h8, h9⟩ := hagree c
    rw [Cert.ReferenceIdeal.Hand.res_eq_refNet, h0, h1, h2, h3, h4, h5, h6, h7, h8, h9]
    exact (Cert.Proof.Bridge.net_eq _ _ _ _ _ _ _ _ _ _).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
